-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x128 .f32) (main_arg3 : FVec F S128 .f32) (main_arg4 : FVec F S128x64 .f32) (main_arg5 : FVec F S64 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S200x10000 : Shape := ⟨2, ![200, 10000]⟩
abbrev S200x64 : Shape := ⟨2, ![200, 64]⟩
abbrev S200x128 : Shape := ⟨2, ![200, 128]⟩

abbrev nBuf : Space → Nat
  | .hbm => 10
  | .vmem => 13
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .hbm, ⟨9, _⟩ => ⟨S10000x10000, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S200x64, .f32⟩
  | .local _ .vmem, ⟨8, _⟩ => ⟨S200x64, .f32⟩
  | .local _ .vmem, ⟨9, _⟩ => ⟨S200x10000, .f32⟩
  | .local _ .vmem, ⟨10, _⟩ => ⟨S200x10000, .f32⟩
  | .local _ .vmem, ⟨11, _⟩ => ⟨S10000x128, .f32⟩
  | .local _ .vmem, ⟨12, _⟩ => ⟨S10000x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![101], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c50_i32 : BitVec 32 := 50#32
  let v4 : BitVec 1 := Scalar.cmpi .sle arg0 c50_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_4 : BitVec 32 := 1#32
  let v11 : BitVec 32 := Scalar.subi arg0 c1_i32_4
  let c200_i32 : BitVec 32 := 200#32
  let v24 : BitVec 32 := Scalar.muli v11 c200_i32
  let v25 : Index := Scalar.indexCast v24
  let c0_16 : Index := 0#32
  ![v25.toNat, 0]
def k0_cond3 (i : grid0.Coords) : BitVec 1 :=
  let arg0 : BitVec 32 := BitVec.ofNat 32 (i 0).val
  let c50_i32_2 : BitVec 32 := 50#32
  let v8 : BitVec 1 := Scalar.cmpi .sgt arg0 c50_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c50_i32 : BitVec 32 := 50#32
  let v0 : BitVec 1 := Scalar.cmpi .sle arg0 c50_i32
  let c1_i32 : BitVec 32 := 1#32
  let v1 : BitVec 32 := Scalar.subi arg0 c1_i32
  let c0_i32 : BitVec 32 := 0#32
  let v2 : BitVec 32 := Scalar.maxsi v1 c0_i32
  let c50_i32_0 : BitVec 32 := 50#32
  let v3 : BitVec 32 := Scalar.subi arg0 c50_i32_0
  let c1_i32_1 : BitVec 32 := 1#32
  let v4 : BitVec 32 := Scalar.subi v3 c1_i32_1
  let v5 : BitVec 32 := Scalar.select v0 v2 v4
  let c0_i32_2 : BitVec 32 := 0#32
  let c0_i32_3 : BitVec 32 := 0#32
  ![v5.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c50_i32 : BitVec 32 := 50#32
  let v0 : BitVec 1 := Scalar.cmpi .sle arg0 c50_i32
  let c50_i32_0 : BitVec 32 := 50#32
  let v1 : BitVec 32 := Scalar.subi arg0 c50_i32_0
  let c1_i32 : BitVec 32 := 1#32
  let v2 : BitVec 32 := Scalar.subi v1 c1_i32
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let c50_i32 : BitVec 32 := 50#32
  let v0 : BitVec 1 := Scalar.cmpi .sle arg0 c50_i32
  let c1_i32 : BitVec 32 := 1#32
  let v1 : BitVec 32 := Scalar.subi arg0 c1_i32
  let c0_i32 : BitVec 32 := 0#32
  let v2 : BitVec 32 := Scalar.maxsi v1 c0_i32
  let c49_i32 : BitVec 32 := 49#32
  let v3 : BitVec 32 := Scalar.select v0 v2 c49_i32
  let c0_i32_0 : BitVec 32 := 0#32
  let c0_i32_1 : BitVec 32 := 0#32
  ![v3.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x10000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  inb_S200x64_S200x64_0_0 : ∀ a, (![0, 0] : Fin 2 → Nat) a + S200x64.size a ≤ S200x64.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S200x10000_S10000x64_S200x64_1_0_0_1_n_n_wf : DotDims.WF S200x10000 S10000x64 S200x64 [1] [0] [0] [1] [] []
  hrank0 : 0 < grid0.rank
  k0_off1_inb : ∀ i : grid0.Coords, ∀ (k0_h2 : k0_cond2 i = 1#1), ∀ a, (k0_off1 i) a + S200x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x64.size a ≤ S10000x64.size a
  hwx0_6 : ∀ i : grid0.Coords, EltTy.bits .f32 = 32 ∨ (Rect.block (s := S10000x64) S200x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x10000.size a ≤ S10000x10000.size a
  hwx0_7 : ∀ i : grid0.Coords, EltTy.bits .f32 = 32 ∨ (Rect.block (s := S10000x10000) S200x10000.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S200x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S200x10000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S1x64, .f32⟩
  | .hbm, ⟨16, _⟩ => ⟨S10000x64, .f32⟩
  | .hbm, ⟨17, _⟩ => ⟨S10000x64, .f32⟩
  | .hbm, ⟨18, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KBCases.lean ====
/-
  The grid of the one kernel launch has 101 points. Point 0 computes the first dense layer x·W1 + b1 into the first
  scratch array; points 1..50 each take one block of 200 rows of the adjacency matrix, copy it to the second result
  and write the 200 matching rows of the second layer's input, relu(A·xw)·W2 + b2, into the second scratch array; points 51..100
  each take one block of 200 rows of the adjacency matrix again and write the matching 200 rows of A·h2 to the first result.
  This file decides, over the 101 points, which of the three branches of the body is taken where, at which rows the second
  scratch array is written, which block every window sits on, and at which points the two result windows are written back.
-/
import proofs.«147849_g52656299049164_cont_9to1_m_1270_11_alg».proof.Proof.Gen.Kernel.Frame
import proofs.«147849_g52656299049164_cont_9to1_m_1270_11_alg».proof.Proof.Gen.Kernel.Skeleton

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions -/

/-- The first branch's condition, the grid coordinate compared with zero, as the body computes it. -/
abbrev cond1 (i : grid0.Coords) : Prop :=
  (Scalar.cmpi .ne (Scalar.extui (Scalar.cmpi .eq (BitVec.ofNat 32 (i 0).val) 0#32)) 0#32) = 1#1
/-- The second branch's condition: the coordinate lies in 1..50. -/
abbrev cond2 (i : grid0.Coords) : Prop := k0_cond2 i = 1#1
/-- The third branch's condition: the coordinate exceeds 50. -/
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ (1 ≤ t.val ∧ t.val ≤ 50) :=
  (by decide +kernel : ∀ t : Fin grid0.N, cond2 (grid0.coords t) ↔ (1 ≤ t.val ∧ t.val ≤ 50))
theorem hcond3 : ∀ t : Fin cfg0.N, cond3 (grid0.coords t) ↔ 50 < t.val :=
  (by decide +kernel : ∀ t : Fin grid0.N, cond3 (grid0.coords t) ↔ 50 < t.val)

/-! ## The rows of the second scratch array a point of the middle phase writes -/

theorem off1_row : ∀ t : Fin cfg0.N, 1 ≤ t.val → t.val ≤ 50 → k0_off1 (grid0.coords t) 0 = 200 * (t.val - 1) :=
  (by decide +kernel : ∀ t : Fin grid0.N, 1 ≤ t.val → t.val ≤ 50 → k0_off1 (grid0.coords t) 0 = 200 * (t.val - 1))
theorem off1_col : ∀ t : Fin cfg0.N, k0_off1 (grid0.coords t) 1 = 0 :=
  (by decide +kernel : ∀ t : Fin grid0.N, k0_off1 (grid0.coords t) 1 = 0)

/-! ## Which block each moving window sits on -/

/-- The adjacency window: block t - 1 in the middle phase (block 0 is already fetched at point 0), block t - 51 in the last. -/
theorem idx0_row : ∀ t : Fin cfg0.N, win0_0.index t (0 : Fin 2) = if t.val ≤ 50 then t.val - 1 else t.val - 51 :=
  (by decide +kernel : ∀ t : Fin grid0.N, win0_0.index t (0 : Fin 2) = if t.val ≤ 50 then t.val - 1 else t.val - 51)
theorem idx0_col : ∀ t : Fin cfg0.N, win0_0.index t (1 : Fin 2) = 0 :=
  (by decide +kernel : ∀ t : Fin grid0.N, win0_0.index t (1 : Fin 2) = 0)
/-- The first result's window: block t - 51 in the last phase. -/
theorem idx6_row : ∀ t : Fin cfg0.N, win0_6.index t (0 : Fin 2) = if t.val ≤ 50 then 0 else t.val - 51 :=
  (by decide +kernel : ∀ t : Fin grid0.N, win0_6.index t (0 : Fin 2) = if t.val ≤ 50 then 0 else t.val - 51)
theorem idx6_col : ∀ t : Fin cfg0.N, win0_6.index t (1 : Fin 2) = 0 :=
  (by decide +kernel : ∀ t : Fin grid0.N, win0_6.index t (1 : Fin 2) = 0)
/-- The second result's window: block t - 1 in the middle phase, then it stays on block 49. -/
theorem idx7_row : ∀ t : Fin cfg0.N, win0_7.index t (0 : Fin 2) = if t.val ≤ 50 then t.val - 1 else 49 :=
  (by decide +kernel : ∀ t : Fin grid0.N, win0_7.index t (0 : Fin 2) = if t.val ≤ 50 then t.val - 1 else 49)
theorem idx7_col : ∀ t : Fin cfg0.N, win0_7.index t (1 : Fin 2) = 0 :=
  (by decide +kernel : ∀ t : Fin grid0.N, win0_7.index t (1 : Fin 2) = 0)

/-! ## Where the two result windows are idle and where they are written back -/

theorem idle6_iff : ∀ t : Fin cfg0.N, cfg0.idle 6 (grid0.coords t) = true ↔ t.val ≤ 50 :=
  (by decide +kernel : ∀ t : Fin grid0.N, cfg0.idle 6 (grid0.coords t) = true ↔ t.val ≤ 50)
theorem idle7_iff : ∀ t : Fin cfg0.N, cfg0.idle 7 (grid0.coords t) = true ↔ (t.val = 0 ∨ 50 < t.val) :=
  (by decide +kernel : ∀ t : Fin grid0.N, cfg0.idle 7 (grid0.coords t) = true ↔ (t.val = 0 ∨ 50 < t.val))
/-- The first result is written back at every point of the last phase. -/
theorem flush6_iff : ∀ t : Fin cfg0.N, (cfg0.win 6).flush t = true ↔ 51 ≤ t.val :=
  (by decide +kernel : ∀ t : Fin grid0.N, win0_6.flush t = true ↔ 51 ≤ t.val)
/-- The second result is written back when its block is about to change (points 1..49) and at the very last point. -/
theorem flush7_iff : ∀ t : Fin cfg0.N, (cfg0.win 7).flush t = true ↔ ((1 ≤ t.val ∧ t.val ≤ 49) ∨ t.val = 100) :=
  (by decide +kernel : ∀ t : Fin grid0.N, win0_7.flush t = true ↔ ((1 ≤ t.val ∧ t.val ≤ 49) ∨ t.val = 100))
theorem live_in : ∀ (w : Fin 8), w.val < 6 → ∀ t : Fin cfg0.N, cfg0.idle w (grid0.coords t) = false := by
  intro w hw t
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl

/-! ## The staging and scratch memrefs -/

/-- Each window's current staging memref at point `t`, as the pipeline passes it, and its wholeness. -/
abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S200x10000 .f32 := win0_7.stage (cfg0.slots t 7)
abbrev hs7 (t : Fin cfg0.N) : (ms7 t).IsWhole := hstage0_7 ((cfg0.slots t 7).cast nbuf0_7)
/-- The two scratch arrays the kernel keeps between points: the first layer's output and the second layer's input. -/
abbrev scA : Memref sig .tc .vmem S10000x128 .f32 := Memref.whole cc0_scratch0
abbrev scB : Memref sig .tc .vmem S10000x64 .f32 := Memref.whole cc0_scratch1

/-- What the region lends the body beside the windows: the two scratch arrays, each whole at some contents, and the
    generator register at some state. -/
theorem PhiA0_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.Kernel.Gen.Hand

end
-- ==== Proof.LibPieceRead.lean ====
/-
  Reading a buffer after a list of stores, newest first, one store at a time.

  A store through the whole shape hides everything before it: the buffer then reads the store's payload. A store
  through a unit-stride rectangle patches the buffer: inside the rectangle it reads the payload at the index minus
  the offsets, outside it reads what the earlier stores left. Program-free.
-/
import Idealize.ShloMosaic.Lib.WritesUnit
import Idealize.ShloMosaic.Lib.Pipeline.Value
import Idealize.ShloMosaic.Lib.Pipeline.FrameBody

namespace Idealize.ShloMosaic

namespace View

variable {sig : RefSig} {κ : Kind} {sp : Space} {S : Shape} {e : EltTy} {Val : EltTy → Type}

/-- After a newest store through the whole shape (offsets zero, however spelt) the buffer reads its payload. -/
theorem read_writes_cons_whole (v : View sig κ sp S e) (f : v.ty.Contents Val) {off : Fin S.rank → ℕ}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  subst h; funext y
  have e := read_writes_cons_emb v f (Rect.whole S) w L y
  rw [Rect.emb_whole_apply] at e
  exact e

/-- Contents `X` patched by a payload `w` on the unit-stride rectangle of sizes `size` at offsets `off`. -/
def patch (off size : Fin S.rank → ℕ) (w : ((a : Fin S.rank) → Fin (size a)) → Val e) (X : S.Idx → Val e) : S.Idx → Val e :=
  fun y => if h : ∀ a, off a ≤ (y a).val ∧ (y a).val < off a + size a then w (Rect.unitLocal y h) else X y

/-- After a newest store through a unit-stride rectangle the buffer reads the earlier contents patched by it. -/
theorem read_writes_cons_patch (v : View sig κ sp S e) (f : v.ty.Contents Val) {off size : Fin S.rank → ℕ}
    (inb : ∀ a, off a + size a ≤ S.size a) (w : (Rect.unit off size inb).shape.Idx → Val e) (L : List (Piece Val S e)) :
    v.read Val (v.writes Val f ((⟨Rect.unit off size inb, w⟩ : Piece Val S e) :: L))
      = patch off size w (v.read Val (v.writes Val f L)) :=
  funext fun y => read_writes_cons_unit v f inb w L y rfl

/-- Inside the rectangle the patch reads the payload. -/
theorem patch_of_mem {off size : Fin S.rank → ℕ} (w : ((a : Fin S.rank) → Fin (size a)) → Val e) (X : S.Idx → Val e) (y : S.Idx)
    (h : ∀ a, off a ≤ (y a).val ∧ (y a).val < off a + size a) : patch off size w X y = w (Rect.unitLocal y h) := dif_pos h

/-- Outside it the earlier contents. -/
theorem patch_of_not_mem {off size : Fin S.rank → ℕ} (w : ((a : Fin S.rank) → Fin (size a)) → Val e) (X : S.Idx → Val e) (y : S.Idx)
    (h : ¬∀ a, off a ≤ (y a).val ∧ (y a).val < off a + size a) : patch off size w X y = X y := dif_neg h

end View

end Idealize.ShloMosaic
-- ==== Proof.KBState.lean ====
/-
  What the kernel carries from one grid point to the next in its two scratch arrays, as functions of the argument arrays.

  The first scratch array holds xw = x·W1 + b1 from point 0 on. The second is filled 200 rows at a time: after the points
  1..n of the middle phase its rows below 200·n hold h2 = relu(A·xw)·W2 + b2, row r computed from the block of the adjacency
  matrix that contains row r, and its other rows still hold whatever they held when the launch began. One more point of the
  middle phase patches the next 200 rows; after point 50 every row holds h2 and nothing of the initial contents is left.
-/
import proofs.«147849_g52656299049164_cont_9to1_m_1270_11_alg».proof.Proof.KBCases
import proofs.«147849_g52656299049164_cont_9to1_m_1270_11_alg».proof.Proof.LibPieceRead
import Idealize.ShloMosaic.Lib.ValueIdx

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The grid point numbered `k` (numbers are taken modulo the 101 points; only 0..100 are ever asked for). -/
def pt (k : ℕ) : Fin cfg0.N := ⟨k % 101, lt_of_lt_of_eq (Nat.mod_lt k (by norm_num)) (show (101 : ℕ) = cfg0.N from N_0.symm)⟩

theorem pt_val (t : Fin cfg0.N) : pt t.val = t :=
  Fin.ext (Nat.mod_eq_of_lt (lt_of_lt_of_eq t.isLt (show cfg0.N = 101 from N_0)))

theorem pt_val' (k : ℕ) (h : k < 101) : (pt k).val = k := Nat.mod_eq_of_lt h

/-- The first layer's output x·W1 + b1: what point 0 writes over the first scratch array. -/
def XW (c : Dev nD) : Vec F S10000x128 .f32 := k0_pay1 (iblk m c 1 (pt 0)) (iblk m c 2 (pt 0)) (iblk m c 3 (pt 0))

/-- The 200 rows of the second layer's input relu(A·xw)·W2 + b2 that the middle-phase point numbered `k` computes from
    its block A of the adjacency matrix. -/
def pay2At (c : Dev nD) (k : ℕ) : Vec F S200x64 .f32 :=
  k0_pay2 (iblk m c 0 (pt k)) (XW m c) (iblk m c 4 (pt k)) (iblk m c 5 (pt k))

/-- The whole second layer's input: row r is row r mod 200 of what point r / 200 + 1 computes. -/
def H2fin (c : Dev nD) : Vec F S10000x64 .f32 :=
  fun y => pay2At m c ((y 0).val / 200 + 1) (ix2 (n0 := 200) (n1 := 64) ⟨(y 0).val % 200, Nat.mod_lt _ (by norm_num)⟩ (y 1))

/-- The second scratch array after `n` points of the middle phase, if it held `d0` before them: the layer on the rows
    below 200·n, `d0` on the others. -/
def H2cl (c : Dev nD) (d0 : Vec F S10000x64 .f32) (n : ℕ) : Vec F S10000x64 .f32 :=
  fun y => if (y 0).val < 200 * n then H2fin m c y else d0 y

theorem H2cl_zero (c : Dev nD) (d0 : Vec F S10000x64 .f32) : H2cl m c d0 0 = d0 := by
  funext y; unfold H2cl; rw [if_neg (by omega)]

/-- After all 50 points of the middle phase nothing of the initial contents is left. -/
theorem H2cl_full (c : Dev nD) (d0 : Vec F S10000x64 .f32) : H2cl m c d0 50 = H2fin m c := by
  funext y; unfold H2cl
  have hy0 : (y 0).val < 10000 := idx2_lt0 y
  rw [if_pos (by omega)]

/-- ONE POINT OF THE MIDDLE PHASE: patching the rows 200·(t-1) .. 200·t - 1 with what point t computes takes the array
    after t - 1 points to the array after t points. -/
theorem H2cl_step (c : Dev nD) (d0 : Vec F S10000x64 .f32) (t : Fin cfg0.N) (h1 : 1 ≤ t.val) (h50 : t.val ≤ 50) :
    View.patch (S := S10000x64) (Val := Elt F) (e := .f32) (k0_off1 (grid0.coords t)) S200x64.size (k0_pay2 (iblk m c 0 t) (XW m c) (iblk m c 4 t) (iblk m c 5 t)) (H2cl m c d0 (t.val - 1))
      = H2cl m c d0 t.val := by
  funext y
  have hr := off1_row t h1 h50
  have hc := off1_col t
  have hy0 : (y 0).val < 10000 := idx2_lt0 y
  have hy1 : (y 1).val < 64 := idx2_lt1 y
  by_cases hmem : ∀ a, k0_off1 (grid0.coords t) a ≤ (y a).val ∧ (y a).val < k0_off1 (grid0.coords t) a + S200x64.size a
  · rw [View.patch_of_mem _ _ _ hmem]
    have h0 : k0_off1 (grid0.coords t) 0 ≤ (y 0).val ∧ (y 0).val < k0_off1 (grid0.coords t) 0 + 200 := hmem 0
    rw [hr] at h0
    have hlt : (y 0).val < 200 * t.val := by omega
    have hk : (y 0).val / 200 + 1 = t.val := by omega
    unfold H2cl; rw [if_pos hlt]; unfold H2fin pay2At
    rw [hk, pt_val]
    congr 1
    funext a
    apply Fin.ext
    match a with
    | ⟨0, _⟩ =>
      show (y 0).val - k0_off1 (grid0.coords t) 0 = (y 0).val % 200
      rw [hr]; omega
    | ⟨1, _⟩ =>
      show (y 1).val - k0_off1 (grid0.coords t) 1 = (y 1).val
      rw [hc]; omega
  · rw [View.patch_of_not_mem _ _ _ hmem]
    unfold H2cl
    have hout : (y 0).val < 200 * (t.val - 1) ∨ 200 * t.val ≤ (y 0).val := by
      by_contra hcon
      apply hmem
      intro a
      match a with
      | ⟨0, _⟩ =>
        exact (show k0_off1 (grid0.coords t) 0 ≤ (y 0).val ∧ (y 0).val < k0_off1 (grid0.coords t) 0 + 200 from by rw [hr]; omega)
      | ⟨1, _⟩ =>
        exact (show k0_off1 (grid0.coords t) 1 ≤ (y 1).val ∧ (y 1).val < k0_off1 (grid0.coords t) 1 + 64 from by rw [hc]; omega)
    rcases hout with h | h
    · rw [if_pos h, if_pos (by omega)]
    · rw [if_neg (by omega), if_neg (by omega)]

end Cert.Kernel.Gen.Hand

end
-- ==== Proof.KBRunA.lean ====
/-
  The body at the first point of the grid (coordinate 0). It reads the node features x, the first layer's weights W1 and
  its bias row, and writes the first layer's output x·W1 + b1 over the whole first scratch array, whatever that held.
-/
import proofs.«147849_g52656299049164_cont_9to1_m_1270_11_alg».proof.Proof.KBCases
import proofs.«147849_g52656299049164_cont_9to1_m_1270_11_alg».proof.Proof.LibPieceRead

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runA (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S200x64 .f32) (harg7 : arg7.IsWhole) (arg8 : Memref sig .tc .vmem S200x10000 .f32) (harg8 : arg8.IsWhole) (arg9 : Memref sig .tc .vmem S10000x128 .f32) (harg9 : arg9.IsWhole) (arg10 : Memref sig .tc .vmem S10000x64 .f32) (harg10 : arg10.IsWhole)
    (hc1 : cond1 i) (hc2 : ¬cond2 i) (hc3 : ¬cond3 i)
    (x1 : Vec F S10000x128 .f32) (w1 : Vec F S128x128 .f32) (b1 : Vec F S1x128 .f32)
    (E : Set ℕ) (K : PUnit → sProp 𝕄) :
    iprop(owns (c : Thread nD τ) arg2 fullShare x1 ∗ owns (c : Thread nD τ) arg3 fullShare w1 ∗ owns (c : Thread nD τ) arg4 fullShare b1
        ∗ (∃ d, owns (c : Thread nD τ) arg9 fullShare d)
        ∗ (iprop(owns (c : Thread nD τ) arg2 fullShare x1 ∗ owns (c : Thread nD τ) arg3 fullShare w1 ∗ owns (c : Thread nD τ) arg4 fullShare b1
            ∗ owns (c : Thread nD τ) arg9 fullShare (k0_pay1 x1 w1 b1)) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10) K := by
  have hz2 : (![0, 0] : Fin 2 → ℕ) = fun _ => 0 := by funext a; fin_cases a <;> rfl
  simp only [cc0_body_eq_skeleton]; unfold cc0_body_skel
  unfold owns
  iintro ⟨⟨%f2, %hf2, H2⟩, ⟨%f3, %hf3, H3⟩, ⟨%f4, %hf4, H4⟩, ⟨%d9, %f9, -, H9⟩, Hk⟩
  obtain rfl := harg2.eq_unread hf2; obtain rfl := harg3.eq_unread hf3; obtain rfl := harg4.eq_unread hf4
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H9
  ipureintro
  rw [View.read_writes_cons_whole _ _ hz2]
  simp only [View.readAt_eq_ld, harg2.read_unread, harg3.read_unread, harg4.read_unread, View.ld_unit_zero (S := S10000x128) hz2, View.ld_unit_zero (S := S128x128) hz2, View.ld_unit_zero (S := S1x128) hz2]

end Cert.Kernel.Gen.Hand

end
-- ==== Proof.KBRunB.lean ====
/-
  The body at a point of the middle phase (grid coordinate 1..50). It reads the current block A of 200 rows of the adjacency
  matrix, copies it into the second result's buffer, reads the first layer's output xw from the first scratch array and the
  second layer's weights and bias, and writes relu(A·xw)·W2 + b2 into the 200 rows of the second scratch array that match
  the block, leaving the array's other rows as they were.
-/
import proofs.«147849_g52656299049164_cont_9to1_m_1270_11_alg».proof.Proof.KBCases
import proofs.«147849_g52656299049164_cont_9to1_m_1270_11_alg».proof.Proof.LibPieceRead

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runB (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S200x64 .f32) (harg7 : arg7.IsWhole) (arg8 : Memref sig .tc .vmem S200x10000 .f32) (harg8 : arg8.IsWhole) (arg9 : Memref sig .tc .vmem S10000x128 .f32) (harg9 : arg9.IsWhole) (arg10 : Memref sig .tc .vmem S10000x64 .f32) (harg10 : arg10.IsWhole)
    (hc1 : ¬cond1 i) (hc2 : cond2 i) (hc3 : ¬cond3 i)
    (x0 : Vec F S200x10000 .f32) (xw : Vec F S10000x128 .f32) (w2 : Vec F S128x64 .f32) (b2 : Vec F S1x64 .f32) (h : Vec F S10000x64 .f32)
    (E : Set ℕ) (K : PUnit → sProp 𝕄) :
    iprop(owns (c : Thread nD τ) arg1 fullShare x0 ∗ (∃ d, owns (c : Thread nD τ) arg8 fullShare d) ∗ owns (c : Thread nD τ) arg9 fullShare xw
        ∗ owns (c : Thread nD τ) arg5 fullShare w2 ∗ owns (c : Thread nD τ) arg6 fullShare b2 ∗ owns (c : Thread nD τ) arg10 fullShare h
        ∗ (iprop(owns (c : Thread nD τ) arg1 fullShare x0 ∗ owns (c : Thread nD τ) arg8 fullShare x0 ∗ owns (c : Thread nD τ) arg9 fullShare xw
            ∗ owns (c : Thread nD τ) arg5 fullShare w2 ∗ owns (c : Thread nD τ) arg6 fullShare b2
            ∗ owns (c : Thread nD τ) arg10 fullShare (View.patch (k0_off1 i) S200x64.size (k0_pay2 x0 xw w2 b2) h)) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10) K := by
  have hz2 : (![0, 0] : Fin 2 → ℕ) = fun _ => 0 := by funext a; fin_cases a <;> rfl
  simp only [cc0_body_eq_skeleton]; unfold cc0_body_skel
  unfold owns
  iintro ⟨⟨%f1, %hf1, H1⟩, ⟨%d8, %f8, -, H8⟩, ⟨%f9, %hf9, H9⟩, ⟨%f5, %hf5, H5⟩, ⟨%f6, %hf6, H6⟩, ⟨%f10, %hf10, H10⟩, Hk⟩
  obtain rfl := harg1.eq_unread hf1; obtain rfl := harg9.eq_unread hf9; obtain rfl := harg5.eq_unread hf5
  obtain rfl := harg6.eq_unread hf6; obtain rfl := harg10.eq_unread hf10
  sl_exec (disch := first | exact hc1 | exact hc2 | exact hc3)
  sl_step
  iapply Hk
  isplitl [H1]
  · iexists _; isplitr; · ipureintro; exact harg1.read_unread _
    iexact H1
  isplitl [H8]
  · iexists _; isplitr
    swap; · iexact H8
    ipureintro
    rw [View.read_writes_cons_whole _ _ hz2]
    simp only [View.readAt_eq_ld, harg1.read_unread, View.ld_unit_zero (S := S200x10000) hz2]
  isplitl [H9]
  · iexists _; isplitr; · ipureintro; exact harg9.read_unread _
    iexact H9
  isplitl [H5]
  · iexists _; isplitr; · ipureintro; exact harg5.read_unread _
    iexact H5
  isplitl [H6]
  · iexists _; isplitr; · ipureintro; exact harg6.read_unread _
    iexact H6
  iexists _; isplitr
  swap; · iexact H10
  ipureintro
  rw [View.read_writes_cons_patch]
  simp only [View.readAt_eq_ld, harg1.read_unread, harg9.read_unread, harg5.read_unread, harg6.read_unread, View.ld_unit_zero (S := S200x10000) hz2, View.ld_unit_zero (S := S10000x128) hz2, View.ld_unit_zero (S := S128x64) hz2, View.ld_unit_zero (S := S1x64) hz2]
  congr 1
  all_goals exact harg10.read_unread _

end Cert.Kernel.Gen.Hand

end
-- ==== Proof.KBRunC.lean ====
/-
  The body at a point of the last phase (grid coordinate 51..100). It reads the current block A of 200 rows of the adjacency
  matrix and the whole second scratch array h2, and writes their product A·h2 over the first result's buffer.
-/
import proofs.«147849_g52656299049164_cont_9to1_m_1270_11_alg».proof.Proof.KBCases
import proofs.«147849_g52656299049164_cont_9to1_m_1270_11_alg».proof.Proof.LibPieceRead

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runC (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S200x64 .f32) (harg7 : arg7.IsWhole) (arg8 : Memref sig .tc .vmem S200x10000 .f32) (harg8 : arg8.IsWhole) (arg9 : Memref sig .tc .vmem S10000x128 .f32) (harg9 : arg9.IsWhole) (arg10 : Memref sig .tc .vmem S10000x64 .f32) (harg10 : arg10.IsWhole)
    (hc1 : ¬cond1 i) (hc2 : ¬cond2 i) (hc3 : cond3 i)
    (x0 : Vec F S200x10000 .f32) (h : Vec F S10000x64 .f32)
    (E : Set ℕ) (K : PUnit → sProp 𝕄) :
    iprop(owns (c : Thread nD τ) arg1 fullShare x0 ∗ owns (c : Thread nD τ) arg10 fullShare h ∗ (∃ d, owns (c : Thread nD τ) arg7 fullShare d)
        ∗ (iprop(owns (c : Thread nD τ) arg1 fullShare x0 ∗ owns (c : Thread nD τ) arg10 fullShare h
            ∗ owns (c : Thread nD τ) arg7 fullShare (k0_pay3 x0 h)) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10) K := by
  have hz2 : (![0, 0] : Fin 2 → ℕ) = fun _ => 0 := by funext a; fin_cases a <;> rfl
  simp only [cc0_body_eq_skeleton]; unfold cc0_body_skel
  unfold owns
  iintro ⟨⟨%f1, %hf1, H1⟩, ⟨%f10, %hf10, H10⟩, ⟨%d7, %f7, -, H7⟩, Hk⟩
  obtain rfl := harg1.eq_unread hf1; obtain rfl := harg10.eq_unread hf10
  sl_exec (disch := first | exact hc1 | exact hc2 | exact hc3)
  sl_step
  iapply Hk
  isplitl [H1]
  · iexists _; isplitr; · ipureintro; exact harg1.read_unread _
    iexact H1
  isplitl [H10]
  · iexists _; isplitr; · ipureintro; exact harg10.read_unread _
    iexact H10
  iexists _; isplitr
  swap; · iexact H7
  ipureintro
  rw [View.read_writes_cons_whole _ _ hz2]
  simp only [View.readAt_eq_ld, harg1.read_unread, harg10.read_unread, View.ld_unit_zero (S := S200x10000) hz2, View.ld_unit_zero (S := S10000x64) hz2]

end Cert.Kernel.Gen.Hand

end
-- ==== Proof.KBFrame.lean ====
/-
  The frame of the kernel program: every execution of @main terminates without a fault and leaves the six argument arrays
  as they were. The proof follows the launch's 101 grid points with an invariant that names what the two scratch arrays
  hold before each point: anything before point 0; from then on xw = x·W1 + b1 in the first, and in the second the rows of
  h2 = relu(A·xw)·W2 + b2 that the middle-phase points done so far have written, over whatever it held at first.

  The first result's buffer is written only in the last phase, one block of A·h2 per point, and is written back at each of
  those points. The second result's buffer takes the adjacency block at each middle-phase point and is written back when
  its block is about to change; from point 51 on the body no longer touches it and its block stays the last one, so the
  write-back at the very last point writes what point 50 left there: the last adjacency block once more.
-/
import proofs.«147849_g52656299049164_cont_9to1_m_1270_11_alg».proof.Proof.KBState
import proofs.«147849_g52656299049164_cont_9to1_m_1270_11_alg».proof.Proof.KBRunA
import proofs.«147849_g52656299049164_cont_9to1_m_1270_11_alg».proof.Proof.KBRunB
import proofs.«147849_g52656299049164_cont_9to1_m_1270_11_alg».proof.Proof.KBRunC

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## Idle and write-back facts in the form the rewriting needs -/

theorem idle6_true (t : Fin cfg0.N) (h : t.val ≤ 50) : cfg0.idle 6 (grid0.coords t) = true := (idle6_iff t).mpr h
theorem idle6_false (t : Fin cfg0.N) (h : 50 < t.val) : cfg0.idle 6 (grid0.coords t) = false :=
  Bool.eq_false_iff.mpr fun hh => by have := (idle6_iff t).mp hh; omega
theorem idle7_true (t : Fin cfg0.N) (h : t.val = 0 ∨ 50 < t.val) : cfg0.idle 7 (grid0.coords t) = true := (idle7_iff t).mpr h
theorem idle7_false (t : Fin cfg0.N) (h1 : 1 ≤ t.val) (h50 : t.val ≤ 50) : cfg0.idle 7 (grid0.coords t) = false :=
  Bool.eq_false_iff.mpr fun hh => by have := (idle7_iff t).mp hh; omega
theorem flush6_false (t : Fin cfg0.N) (h : t.val ≤ 50) : (cfg0.win 6).flush t = false :=
  Bool.eq_false_iff.mpr fun hh => by have := (flush6_iff t).mp hh; omega
theorem flush7_false (t : Fin cfg0.N) (h : t.val = 0 ∨ (50 ≤ t.val ∧ t.val ≤ 99)) : (cfg0.win 7).flush t = false :=
  Bool.eq_false_iff.mpr fun hh => by have := (flush7_iff t).mp hh; omega
theorem flush7_last (t : Fin cfg0.N) (h : t.val = 100) : (cfg0.win 7).flush t = true := (flush7_iff t).mpr (.inr h)

/-! ## The invariant -/

/-- Where the second result's buffer gets its contents: at a point up to 50 from that point's adjacency block, later
    still from point 50's. -/
def p7 (t : Fin cfg0.N) : Fin cfg0.N := if t.val ≤ 50 then t else pt 50

/-- The region's invariant before point `n`. -/
def PhiS (c : Dev nD) : ℕ → sProp 𝕄
  | 0 => Pipeline.ΦA spec0 c
  | n + 1 => iprop(iprop(owns (c : Thread nD τ) scA fullShare (XW m c) ∗ (∃ d0, owns (c : Thread nD τ) scB fullShare (H2cl m c d0 (min n 50)))) ∗ (∃ r, prngReg c r))

theorem PhiS_succ (c : Dev nD) (n : ℕ) :
    PhiS m c (n + 1) = iprop(iprop(owns (c : Thread nD τ) scA fullShare (XW m c) ∗ (∃ d0, owns (c : Thread nD τ) scB fullShare (H2cl m c d0 (min n 50)))) ∗ (∃ r, prngReg c r)) := rfl

theorem PhiS_pos (c : Dev nD) (n : ℕ) (hz : n ≠ 0) :
    PhiS m c n = iprop(iprop(owns (c : Thread nD τ) scA fullShare (XW m c) ∗ (∃ d0, owns (c : Thread nD τ) scB fullShare (H2cl m c d0 (min (n - 1) 50)))) ∗ (∃ r, prngReg c r)) := by
  cases n with
  | zero => exact absurd rfl hz
  | succ n => rfl

/-! ## The proof data -/

/-- After the body at point `t`: every input's buffer still at its block; the first result's at this point's block of
    A·h2; the second result's at the adjacency block it last took. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 0 t) (H2fin m c)
    | ⟨7, _⟩ => iblk m c 0 (p7 t)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay3 (iblk m c 0 t) (H2fin m c) := by dsimp only [dats]
theorem after7 (c : Dev nD) (t : Fin cfg0.N) : (dats m 0 c).after 7 t = iblk m c 0 (p7 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- From point 51 on the second result's buffer holds what point 50 left in it: the points between neither store into it
    nor write it back. -/
theorem before7_late (c : Dev nD) (d) : ∀ (n : ℕ) (t : Fin cfg0.N), t.val = 51 + n → (dats m 0 c).before 7 t d = iblk m c 0 (pt 50)
  | 0, t, ht => by
    have hN : t.val < 101 := lt_of_lt_of_eq t.isLt (show cfg0.N = 101 from N_0)
    rw [(dats m 0 c).before_of_pos 7 t (by omega) ((cfg0.win 7).fetch_out rfl t)]
    rw [flush7_false ⟨t.val - 1, Nat.lt_of_le_of_lt (Nat.sub_le _ _) t.isLt⟩ (.inr (by dsimp only; omega)), if_neg Bool.false_ne_true]
    have hl : (dats m 0 c).left 7 ⟨t.val - 1, Nat.lt_of_le_of_lt (Nat.sub_le _ _) t.isLt⟩ d = (dats m 0 c).kept 7 ⟨t.val - 1, Nat.lt_of_le_of_lt (Nat.sub_le _ _) t.isLt⟩ d := by
      unfold Dat.left; rw [idle7_false ⟨t.val - 1, Nat.lt_of_le_of_lt (Nat.sub_le _ _) t.isLt⟩ (by dsimp only; omega) (by dsimp only; omega)]
    rw [hl]
    unfold Dat.kept
    rw [Pipeline.fill_of_clip_none 7 _ (fun _ => rfl) d ((dats m 0 c).after 7 _), Pipeline.Window.fill_cut, after7]
    congr 1
    unfold p7
    rw [if_pos (by dsimp only; omega)]
    exact Fin.ext (by show t.val - 1 = (pt 50).val; rw [pt_val' 50 (by norm_num)]; omega)
  | n + 1, t, ht => by
    have hN : t.val < 101 := lt_of_lt_of_eq t.isLt (show cfg0.N = 101 from N_0)
    rw [(dats m 0 c).before_of_pos 7 t (by omega) ((cfg0.win 7).fetch_out rfl t)]
    rw [flush7_false ⟨t.val - 1, Nat.lt_of_le_of_lt (Nat.sub_le _ _) t.isLt⟩ (.inr (by dsimp only; omega)), if_neg Bool.false_ne_true]
    have hl : (dats m 0 c).left 7 ⟨t.val - 1, Nat.lt_of_le_of_lt (Nat.sub_le _ _) t.isLt⟩ d = (dats m 0 c).before 7 ⟨t.val - 1, Nat.lt_of_le_of_lt (Nat.sub_le _ _) t.isLt⟩ d := by
      unfold Dat.left; rw [idle7_true ⟨t.val - 1, Nat.lt_of_le_of_lt (Nat.sub_le _ _) t.isLt⟩ (.inr (by dsimp only; omega))]
    rw [hl]
    exact before7_late c d n ⟨t.val - 1, Nat.lt_of_le_of_lt (Nat.sub_le _ _) t.isLt⟩ (by dsimp only; omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem Phi_castSucc (c : Dev nD) (t : Fin cfg0.N) : (dats m 0 c).Φ t.castSucc = PhiS m c t.val := by
  dsimp only [dats]; simp only [Fin.coe_castSucc]

theorem leaves0 (c : Dev nD) (t : Fin cfg0.N) :
    (dats m 0 c).leavesExact 0 t = owns (c : Thread nD τ) (ms0 t) fullShare (iblk m c 0 t) := by
  unfold Dat.leavesExact; rw [live_in 0 (by decide) t, after0]
theorem leaves1 (c : Dev nD) (t : Fin cfg0.N) :
    (dats m 0 c).leavesExact 1 t = owns (c : Thread nD τ) (ms1 t) fullShare (iblk m c 1 t) := by
  unfold Dat.leavesExact; rw [live_in 1 (by decide) t, after1]
theorem leaves2 (c : Dev nD) (t : Fin cfg0.N) :
    (dats m 0 c).leavesExact 2 t = owns (c : Thread nD τ) (ms2 t) fullShare (iblk m c 2 t) := by
  unfold Dat.leavesExact; rw [live_in 2 (by decide) t, after2]
theorem leaves3 (c : Dev nD) (t : Fin cfg0.N) :
    (dats m 0 c).leavesExact 3 t = owns (c : Thread nD τ) (ms3 t) fullShare (iblk m c 3 t) := by
  unfold Dat.leavesExact; rw [live_in 3 (by decide) t, after3]
theorem leaves4 (c : Dev nD) (t : Fin cfg0.N) :
    (dats m 0 c).leavesExact 4 t = owns (c : Thread nD τ) (ms4 t) fullShare (iblk m c 4 t) := by
  unfold Dat.leavesExact; rw [live_in 4 (by decide) t, after4]
theorem leaves5 (c : Dev nD) (t : Fin cfg0.N) :
    (dats m 0 c).leavesExact 5 t = owns (c : Thread nD τ) (ms5 t) fullShare (iblk m c 5 t) := by
  unfold Dat.leavesExact; rw [live_in 5 (by decide) t, after5]

/-- The body's pre- and postcondition with everything that does not depend on the case rewritten: the inputs' buffers at
    their blocks, nothing owed before or after, the invariant after the point spelled out. -/
theorem sound_shape (c : Dev nD) (t : Fin cfg0.N)
    (h : iprop(PhiS m c t.val ∗ (dats m 0 c).owesAt () t.castSucc
        ∗ (∃ d : (cfg0.win 0).block.Idx → Elt F (cfg0.win 0).elt, owns (c : Thread nD τ) (ms0 t) fullShare (iblk m c 0 t))
        ∗ (∃ d : (cfg0.win 1).block.Idx → Elt F (cfg0.win 1).elt, owns (c : Thread nD τ) (ms1 t) fullShare (iblk m c 1 t))
        ∗ (∃ d : (cfg0.win 2).block.Idx → Elt F (cfg0.win 2).elt, owns (c : Thread nD τ) (ms2 t) fullShare (iblk m c 2 t))
        ∗ (∃ d : (cfg0.win 3).block.Idx → Elt F (cfg0.win 3).elt, owns (c : Thread nD τ) (ms3 t) fullShare (iblk m c 3 t))
        ∗ (∃ d : (cfg0.win 4).block.Idx → Elt F (cfg0.win 4).elt, owns (c : Thread nD τ) (ms4 t) fullShare (iblk m c 4 t))
        ∗ (∃ d : (cfg0.win 5).block.Idx → Elt F (cfg0.win 5).elt, owns (c : Thread nD τ) (ms5 t) fullShare (iblk m c 5 t))
        ∗ (∃ d, owns (c : Thread nD τ) (ms6 t) fullShare ((dats m 0 c).before 6 t d))
        ∗ (∃ d, owns (c : Thread nD τ) (ms7 t) fullShare ((dats m 0 c).before 7 t d)))
      ⊢ wp frame (wpE (defs₀ (F := F)) Variants.none c none) Set.univ (bodyAt0 t) (fun _ =>
          iprop(PhiS m c (t.val + 1) ∗ (dats m 0 c).owesAt () t.castSucc
            ∗ owns (c : Thread nD τ) (ms0 t) fullShare (iblk m c 0 t)
            ∗ owns (c : Thread nD τ) (ms1 t) fullShare (iblk m c 1 t)
            ∗ owns (c : Thread nD τ) (ms2 t) fullShare (iblk m c 2 t)
            ∗ owns (c : Thread nD τ) (ms3 t) fullShare (iblk m c 3 t)
            ∗ owns (c : Thread nD τ) (ms4 t) fullShare (iblk m c 4 t)
            ∗ owns (c : Thread nD τ) (ms5 t) fullShare (iblk m c 5 t)
            ∗ (dats m 0 c).leavesExact 6 t ∗ (dats m 0 c).leavesExact 7 t))) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl]
  rw [show (dats m 0 c).Φ t.succ = PhiS m c (t.val + 1) from rfl, Phi_castSucc]
  rw [leaves0, leaves1, leaves2, leaves3, leaves4, leaves5]
  exact h

/-- Point 0: the first layer is computed into the first scratch array; both results' buffers are left alone. -/
theorem sound_A (c : Dev nD) (t : Fin cfg0.N) (h0 : t.val = 0) : bodyPre m c t ⊢ wp frame (wpE (defs₀ (F := F)) Variants.none c none) Set.univ (bodyAt0 t) (fun _ => bodyPost m c t) := by
  apply sound_shape
  have hN : t.val < 101 := lt_of_lt_of_eq t.isLt (show cfg0.N = 101 from N_0)
  have hc1 : cond1 (grid0.coords t) := (hcond1 t).mpr (by omega)
  have hc2 : ¬cond2 (grid0.coords t) := fun h => by have := (hcond2 t).mp h; omega
  have hc3 : ¬cond3 (grid0.coords t) := fun h => by have := (hcond3 t).mp h; omega
  have ht : pt 0 = t := Fin.ext (by rw [h0]; rfl)
  rw [Dat.leavesExact_idle (dats m 0 c) 6 t (idle6_true t (by omega)) (flush6_false t (by omega))]
  rw [Dat.leavesExact_idle (dats m 0 c) 7 t (idle7_true t (.inl h0)) (flush7_false t (.inl h0))]
  rw [PhiS_succ, show PhiS m c t.val = Pipeline.ΦA spec0 c from by rw [h0]; rfl, PhiA0_eq]
  simp only [show min t.val 50 = 0 from by omega, H2cl_zero]
  unfold XW; rw [ht]
  iintro ⟨⟨⟨HA, ⟨%dB, HB⟩⟩, Hg⟩, Ho, ⟨%d0, H0⟩, ⟨%d1, H1⟩, ⟨%d2, H2⟩, ⟨%d3, H3⟩, ⟨%d4, H4⟩, ⟨%d5, H5⟩, H6, H7⟩
  iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) hc1 hc2 hc3 (iblk m c 1 t) (iblk m c 2 t) (iblk m c 3 t) Set.univ _)
  isplitl [H1]; · iexact H1
  isplitl [H2]; · iexact H2
  isplitl [H3]; · iexact H3
  isplitl [HA]; · iexact HA
  iintro ⟨H1, H2, H3, HA⟩
  isplitl [HA HB Hg]
  · isplitl [HA HB]
    · isplitl [HA]; · iexact HA
      iexists dB; iexact HB
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A point of the middle phase: the second result's buffer takes the adjacency block, and the second scratch array gains
    this point's 200 rows. -/
theorem sound_B (c : Dev nD) (t : Fin cfg0.N) (h1 : 1 ≤ t.val) (h50 : t.val ≤ 50) : bodyPre m c t ⊢ wp frame (wpE (defs₀ (F := F)) Variants.none c none) Set.univ (bodyAt0 t) (fun _ => bodyPost m c t) := by
  apply sound_shape
  have hN : t.val < 101 := lt_of_lt_of_eq t.isLt (show cfg0.N = 101 from N_0)
  have hc1 : ¬cond1 (grid0.coords t) := fun h => by have := (hcond1 t).mp h; omega
  have hc2 : cond2 (grid0.coords t) := (hcond2 t).mpr ⟨by omega, by omega⟩
  have hc3 : ¬cond3 (grid0.coords t) := fun h => by have := (hcond3 t).mp h; omega
  rw [Dat.leavesExact_idle (dats m 0 c) 6 t (idle6_true t h50) (flush6_false t h50)]
  rw [show (dats m 0 c).leavesExact 7 t = owns (c : Thread nD τ) (ms7 t) fullShare ((dats m 0 c).after 7 t) from by
    unfold Dat.leavesExact; rw [idle7_false t h1 h50], after7, show p7 t = t from if_pos h50]
  rw [PhiS_succ, PhiS_pos m c t.val (by omega)]
  simp only [show min (t.val - 1) 50 = t.val - 1 from by omega, show min t.val 50 = t.val from by omega]
  iintro ⟨⟨⟨HA, ⟨%dB, HB⟩⟩, Hg⟩, Ho, ⟨%d0, H0⟩, ⟨%d1, H1⟩, ⟨%d2, H2⟩, ⟨%d3, H3⟩, ⟨%d4, H4⟩, ⟨%d5, H5⟩, H6, ⟨%d7, H7⟩⟩
  iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) hc1 hc2 hc3 (iblk m c 0 t) (XW m c) (iblk m c 4 t) (iblk m c 5 t) (H2cl m c dB (t.val - 1)) Set.univ _)
  isplitl [H0]; · iexact H0
  isplitl [H7]; · iexists _; iexact H7
  isplitl [HA]; · iexact HA
  isplitl [H4]; · iexact H4
  isplitl [H5]; · iexact H5
  isplitl [HB]; · iexact HB
  iintro ⟨H0, H7, HA, H4, H5, HB⟩
  rw [H2cl_step m c dB t h1 h50]
  isplitl [HA HB Hg]
  · isplitl [HA HB]
    · isplitl [HA]; · iexact HA
      iexists dB; iexact HB
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A point of the last phase: the first result's buffer takes this point's block of A·h2; the second result's buffer is
    left alone, and at the very last point, where it is written back, it still holds what point 50 left. -/
theorem sound_C (c : Dev nD) (t : Fin cfg0.N) (h51 : 51 ≤ t.val) : bodyPre m c t ⊢ wp frame (wpE (defs₀ (F := F)) Variants.none c none) Set.univ (bodyAt0 t) (fun _ => bodyPost m c t) := by
  apply sound_shape
  have hN : t.val < 101 := lt_of_lt_of_eq t.isLt (show cfg0.N = 101 from N_0)
  have hc1 : ¬cond1 (grid0.coords t) := fun h => by have := (hcond1 t).mp h; omega
  have hc2 : ¬cond2 (grid0.coords t) := fun h => by have := (hcond2 t).mp h; omega
  have hc3 : cond3 (grid0.coords t) := (hcond3 t).mpr (by omega)
  rw [show (dats m 0 c).leavesExact 6 t = owns (c : Thread nD τ) (ms6 t) fullShare ((dats m 0 c).after 6 t) from by
    unfold Dat.leavesExact; rw [idle6_false t (by omega)], after6]
  rw [PhiS_succ, PhiS_pos m c t.val (by omega)]
  simp only [show min (t.val - 1) 50 = 50 from by omega, show min t.val 50 = 50 from by omega, H2cl_full]
  by_cases h100 : t.val = 100
  · rw [show (dats m 0 c).leavesExact 7 t = owns (c : Thread nD τ) (ms7 t) fullShare ((dats m 0 c).after 7 t) from by
      unfold Dat.leavesExact; rw [idle7_true t (.inr (by omega)), flush7_last t h100], after7, show p7 t = pt 50 from if_neg (by omega)]
    have hb7 : ∀ d, (dats m 0 c).before 7 t d = iblk m c 0 (pt 50) := fun d => before7_late m c d (t.val - 51) t (by omega)
    simp only [hb7]
    iintro ⟨⟨⟨HA, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) hc1 hc2 hc3 (iblk m c 0 t) (H2fin m c) Set.univ _)
    isplitl [H0]; · iexact H0
    isplitl [HB]; · iexact HB
    isplitl [H6]; · iexists _; iexact H6
    iintro ⟨H0, HB, H6⟩
    isplitl [HA HB Hg]
    · isplitl [HA HB]
      · isplitl [HA]; · iexact HA
        iexists dB; iexact HB
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dats m 0 c) 7 t (idle7_true t (.inr (by omega))) (flush7_false t (.inr ⟨by omega, by omega⟩))]
    iintro ⟨⟨⟨HA, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩, H7⟩
    iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) hc1 hc2 hc3 (iblk m c 0 t) (H2fin m c) Set.univ _)
    isplitl [H0]; · iexact H0
    isplitl [HB]; · iexact HB
    isplitl [H6]; · iexists _; iexact H6
    iintro ⟨H0, HB, H6⟩
    isplitl [HA HB Hg]
    · isplitl [HA HB]
      · isplitl [HA]; · iexact HA
        iexists dB; iexact HB
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body at any point: one of the three cases. -/
theorem sound_body (c : Dev nD) (t : Fin cfg0.N) : bodyPre m c t ⊢ wp frame (wpE (defs₀ (F := F)) Variants.none c none) Set.univ (bodyAt0 t) (fun _ => bodyPost m c t) := by
  by_cases h0 : t.val = 0
  · exact sound_A m c t h0
  · by_cases h50 : t.val ≤ 50
    · exact sound_B m c t (by omega) h50
    · exact sound_C m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scratch arrays back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 101 := N_0; omega), PhiA0_eq]
  iintro ⟨⟨HA, ⟨%d0, HB⟩⟩, Hg⟩
  isplitl [HA HB]
  · isplitl [HA]
    · iexists _; iexact HA
    · iexists _; iexact HB
  iexact Hg

/-! ## The run -/

set_option backward.isDefEq.respectTransparency.types false in
/-- Every weakly fair execution of @main terminates, and every final state has each array of the launch at what the
    write-backs leave in it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel.Gen.Hand

end
-- ==== Proof.KICases.lean ====
/-
  The grid of the one kernel launch has 101 points. Point 0 computes the first dense layer x·W1 + b1 into the first
  scratch array; points 1..50 each take one block of 200 rows of the adjacency matrix, copy it to the second result
  and write the 200 matching rows of the second layer's input, relu(A·xw)·W2 + b2, into the second scratch array; points 51..100
  each take one block of 200 rows of the adjacency matrix again and write the matching 200 rows of A·h2 to the first result.
  This file decides, over the 101 points, which of the three branches of the body is taken where, at which rows the second
  scratch array is written, which block every window sits on, and at which points the two result windows are written back.
-/
import proofs.«147849_g52656299049164_cont_9to1_m_1270_11_alg».proof.Proof.Gen.KernelIdeal.Frame
import proofs.«147849_g52656299049164_cont_9to1_m_1270_11_alg».proof.Proof.Gen.KernelIdeal.Skeleton

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions -/

/-- The first branch's condition, the grid coordinate compared with zero, as the body computes it. -/
abbrev cond1 (i : grid0.Coords) : Prop :=
  (Scalar.cmpi .ne (Scalar.extui (Scalar.cmpi .eq (BitVec.ofNat 32 (i 0).val) 0#32)) 0#32) = 1#1
/-- The second branch's condition: the coordinate lies in 1..50. -/
abbrev cond2 (i : grid0.Coords) : Prop := k0_cond2 i = 1#1
/-- The third branch's condition: the coordinate exceeds 50. -/
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ (1 ≤ t.val ∧ t.val ≤ 50) :=
  (by decide +kernel : ∀ t : Fin grid0.N, cond2 (grid0.coords t) ↔ (1 ≤ t.val ∧ t.val ≤ 50))
theorem hcond3 : ∀ t : Fin cfg0.N, cond3 (grid0.coords t) ↔ 50 < t.val :=
  (by decide +kernel : ∀ t : Fin grid0.N, cond3 (grid0.coords t) ↔ 50 < t.val)

/-! ## The rows of the second scratch array a point of the middle phase writes -/

theorem off1_row : ∀ t : Fin cfg0.N, 1 ≤ t.val → t.val ≤ 50 → k0_off1 (grid0.coords t) 0 = 200 * (t.val - 1) :=
  (by decide +kernel : ∀ t : Fin grid0.N, 1 ≤ t.val → t.val ≤ 50 → k0_off1 (grid0.coords t) 0 = 200 * (t.val - 1))
theorem off1_col : ∀ t : Fin cfg0.N, k0_off1 (grid0.coords t) 1 = 0 :=
  (by decide +kernel : ∀ t : Fin grid0.N, k0_off1 (grid0.coords t) 1 = 0)

/-! ## Which block each moving window sits on -/

/-- The adjacency window: block t - 1 in the middle phase (block 0 is already fetched at point 0), block t - 51 in the last. -/
theorem idx0_row : ∀ t : Fin cfg0.N, win0_0.index t (0 : Fin 2) = if t.val ≤ 50 then t.val - 1 else t.val - 51 :=
  (by decide +kernel : ∀ t : Fin grid0.N, win0_0.index t (0 : Fin 2) = if t.val ≤ 50 then t.val - 1 else t.val - 51)
theorem idx0_col : ∀ t : Fin cfg0.N, win0_0.index t (1 : Fin 2) = 0 :=
  (by decide +kernel : ∀ t : Fin grid0.N, win0_0.index t (1 : Fin 2) = 0)
/-- The first result's window: block t - 51 in the last phase. -/
theorem idx6_row : ∀ t : Fin cfg0.N, win0_6.index t (0 : Fin 2) = if t.val ≤ 50 then 0 else t.val - 51 :=
  (by decide +kernel : ∀ t : Fin grid0.N, win0_6.index t (0 : Fin 2) = if t.val ≤ 50 then 0 else t.val - 51)
theorem idx6_col : ∀ t : Fin cfg0.N, win0_6.index t (1 : Fin 2) = 0 :=
  (by decide +kernel : ∀ t : Fin grid0.N, win0_6.index t (1 : Fin 2) = 0)
/-- The second result's window: block t - 1 in the middle phase, then it stays on block 49. -/
theorem idx7_row : ∀ t : Fin cfg0.N, win0_7.index t (0 : Fin 2) = if t.val ≤ 50 then t.val - 1 else 49 :=
  (by decide +kernel : ∀ t : Fin grid0.N, win0_7.index t (0 : Fin 2) = if t.val ≤ 50 then t.val - 1 else 49)
theorem idx7_col : ∀ t : Fin cfg0.N, win0_7.index t (1 : Fin 2) = 0 :=
  (by decide +kernel : ∀ t : Fin grid0.N, win0_7.index t (1 : Fin 2) = 0)

/-! ## Where the two result windows are idle and where they are written back -/

theorem idle6_iff : ∀ t : Fin cfg0.N, cfg0.idle 6 (grid0.coords t) = true ↔ t.val ≤ 50 :=
  (by decide +kernel : ∀ t : Fin grid0.N, cfg0.idle 6 (grid0.coords t) = true ↔ t.val ≤ 50)
theorem idle7_iff : ∀ t : Fin cfg0.N, cfg0.idle 7 (grid0.coords t) = true ↔ (t.val = 0 ∨ 50 < t.val) :=
  (by decide +kernel : ∀ t : Fin grid0.N, cfg0.idle 7 (grid0.coords t) = true ↔ (t.val = 0 ∨ 50 < t.val))
/-- The first result is written back at every point of the last phase. -/
theorem flush6_iff : ∀ t : Fin cfg0.N, (cfg0.win 6).flush t = true ↔ 51 ≤ t.val :=
  (by decide +kernel : ∀ t : Fin grid0.N, win0_6.flush t = true ↔ 51 ≤ t.val)
/-- The second result is written back when its block is about to change (points 1..49) and at the very last point. -/
theorem flush7_iff : ∀ t : Fin cfg0.N, (cfg0.win 7).flush t = true ↔ ((1 ≤ t.val ∧ t.val ≤ 49) ∨ t.val = 100) :=
  (by decide +kernel : ∀ t : Fin grid0.N, win0_7.flush t = true ↔ ((1 ≤ t.val ∧ t.val ≤ 49) ∨ t.val = 100))
theorem live_in : ∀ (w : Fin 8), w.val < 6 → ∀ t : Fin cfg0.N, cfg0.idle w (grid0.coords t) = false := by
  intro w hw t
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl

/-! ## The staging and scratch memrefs -/

/-- Each window's current staging memref at point `t`, as the pipeline passes it, and its wholeness. -/
abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S200x10000 .f32 := win0_7.stage (cfg0.slots t 7)
abbrev hs7 (t : Fin cfg0.N) : (ms7 t).IsWhole := hstage0_7 ((cfg0.slots t 7).cast nbuf0_7)
/-- The two scratch arrays the kernel keeps between points: the first layer's output and the second layer's input. -/
abbrev scA : Memref sig .tc .vmem S10000x128 .f32 := Memref.whole cc0_scratch0
abbrev scB : Memref sig .tc .vmem S10000x64 .f32 := Memref.whole cc0_scratch1

/-- What the region lends the body beside the windows: the two scratch arrays, each whole at some contents, and the
    generator register at some state. -/
theorem PhiA0_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.KernelIdeal.Gen.Hand

end
-- ==== Proof.KIState.lean ====
/-
  What the kernel carries from one grid point to the next in its two scratch arrays, as functions of the argument arrays.

  The first scratch array holds xw = x·W1 + b1 from point 0 on. The second is filled 200 rows at a time: after the points
  1..n of the middle phase its rows below 200·n hold h2 = relu(A·xw)·W2 + b2, row r computed from the block of the adjacency
  matrix that contains row r, and its other rows still hold whatever they held when the launch began. One more point of the
  middle phase patches the next 200 rows; after point 50 every row holds h2 and nothing of the initial contents is left.
-/
import proofs.«147849_g52656299049164_cont_9to1_m_1270_11_alg».proof.Proof.KICases
import proofs.«147849_g52656299049164_cont_9to1_m_1270_11_alg».proof.Proof.LibPieceRead
import Idealize.ShloMosaic.Lib.ValueIdx

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The grid point numbered `k` (numbers are taken modulo the 101 points; only 0..100 are ever asked for). -/
def pt (k : ℕ) : Fin cfg0.N := ⟨k % 101, lt_of_lt_of_eq (Nat.mod_lt k (by norm_num)) (show (101 : ℕ) = cfg0.N from N_0.symm)⟩

theorem pt_val (t : Fin cfg0.N) : pt t.val = t :=
  Fin.ext (Nat.mod_eq_of_lt (lt_of_lt_of_eq t.isLt (show cfg0.N = 101 from N_0)))

theorem pt_val' (k : ℕ) (h : k < 101) : (pt k).val = k := Nat.mod_eq_of_lt h

/-- The first layer's output x·W1 + b1: what point 0 writes over the first scratch array. -/
def XW (c : Dev nD) : Vec F S10000x128 .f32 := k0_pay1 (iblk m c 1 (pt 0)) (iblk m c 2 (pt 0)) (iblk m c 3 (pt 0))

/-- The 200 rows of the second layer's input relu(A·xw)·W2 + b2 that the middle-phase point numbered `k` computes from
    its block A of the adjacency matrix. -/
def pay2At (c : Dev nD) (k : ℕ) : Vec F S200x64 .f32 :=
  k0_pay2 (iblk m c 0 (pt k)) (XW m c) (iblk m c 4 (pt k)) (iblk m c 5 (pt k))

/-- The whole second layer's input: row r is row r mod 200 of what point r / 200 + 1 computes. -/
def H2fin (c : Dev nD) : Vec F S10000x64 .f32 :=
  fun y => pay2At m c ((y 0).val / 200 + 1) (ix2 (n0 := 200) (n1 := 64) ⟨(y 0).val % 200, Nat.mod_lt _ (by norm_num)⟩ (y 1))

/-- The second scratch array after `n` points of the middle phase, if it held `d0` before them: the layer on the rows
    below 200·n, `d0` on the others. -/
def H2cl (c : Dev nD) (d0 : Vec F S10000x64 .f32) (n : ℕ) : Vec F S10000x64 .f32 :=
  fun y => if (y 0).val < 200 * n then H2fin m c y else d0 y

theorem H2cl_zero (c : Dev nD) (d0 : Vec F S10000x64 .f32) : H2cl m c d0 0 = d0 := by
  funext y; unfold H2cl; rw [if_neg (by omega)]

/-- After all 50 points of the middle phase nothing of the initial contents is left. -/
theorem H2cl_full (c : Dev nD) (d0 : Vec F S10000x64 .f32) : H2cl m c d0 50 = H2fin m c := by
  funext y; unfold H2cl
  have hy0 : (y 0).val < 10000 := idx2_lt0 y
  rw [if_pos (by omega)]

/-- ONE POINT OF THE MIDDLE PHASE: patching the rows 200·(t-1) .. 200·t - 1 with what point t computes takes the array
    after t - 1 points to the array after t points. -/
theorem H2cl_step (c : Dev nD) (d0 : Vec F S10000x64 .f32) (t : Fin cfg0.N) (h1 : 1 ≤ t.val) (h50 : t.val ≤ 50) :
    View.patch (S := S10000x64) (Val := Elt F) (e := .f32) (k0_off1 (grid0.coords t)) S200x64.size (k0_pay2 (iblk m c 0 t) (XW m c) (iblk m c 4 t) (iblk m c 5 t)) (H2cl m c d0 (t.val - 1))
      = H2cl m c d0 t.val := by
  funext y
  have hr := off1_row t h1 h50
  have hc := off1_col t
  have hy0 : (y 0).val < 10000 := idx2_lt0 y
  have hy1 : (y 1).val < 64 := idx2_lt1 y
  by_cases hmem : ∀ a, k0_off1 (grid0.coords t) a ≤ (y a).val ∧ (y a).val < k0_off1 (grid0.coords t) a + S200x64.size a
  · rw [View.patch_of_mem _ _ _ hmem]
    have h0 : k0_off1 (grid0.coords t) 0 ≤ (y 0).val ∧ (y 0).val < k0_off1 (grid0.coords t) 0 + 200 := hmem 0
    rw [hr] at h0
    have hlt : (y 0).val < 200 * t.val := by omega
    have hk : (y 0).val / 200 + 1 = t.val := by omega
    unfold H2cl; rw [if_pos hlt]; unfold H2fin pay2At
    rw [hk, pt_val]
    congr 1
    funext a
    apply Fin.ext
    match a with
    | ⟨0, _⟩ =>
      show (y 0).val - k0_off1 (grid0.coords t) 0 = (y 0).val % 200
      rw [hr]; omega
    | ⟨1, _⟩ =>
      show (y 1).val - k0_off1 (grid0.coords t) 1 = (y 1).val
      rw [hc]; omega
  · rw [View.patch_of_not_mem _ _ _ hmem]
    unfold H2cl
    have hout : (y 0).val < 200 * (t.val - 1) ∨ 200 * t.val ≤ (y 0).val := by
      by_contra hcon
      apply hmem
      intro a
      match a with
      | ⟨0, _⟩ =>
        exact (show k0_off1 (grid0.coords t) 0 ≤ (y 0).val ∧ (y 0).val < k0_off1 (grid0.coords t) 0 + 200 from by rw [hr]; omega)
      | ⟨1, _⟩ =>
        exact (show k0_off1 (grid0.coords t) 1 ≤ (y 1).val ∧ (y 1).val < k0_off1 (grid0.coords t) 1 + 64 from by rw [hc]; omega)
    rcases hout with h | h
    · rw [if_pos h, if_pos (by omega)]
    · rw [if_neg (by omega), if_neg (by omega)]

end Cert.KernelIdeal.Gen.Hand

end
-- ==== Proof.KIRunA.lean ====
/-
  The body at the first point of the grid (coordinate 0). It reads the node features x, the first layer's weights W1 and
  its bias row, and writes the first layer's output x·W1 + b1 over the whole first scratch array, whatever that held.
-/
import proofs.«147849_g52656299049164_cont_9to1_m_1270_11_alg».proof.Proof.KICases
import proofs.«147849_g52656299049164_cont_9to1_m_1270_11_alg».proof.Proof.LibPieceRead

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runA (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S200x64 .f32) (harg7 : arg7.IsWhole) (arg8 : Memref sig .tc .vmem S200x10000 .f32) (harg8 : arg8.IsWhole) (arg9 : Memref sig .tc .vmem S10000x128 .f32) (harg9 : arg9.IsWhole) (arg10 : Memref sig .tc .vmem S10000x64 .f32) (harg10 : arg10.IsWhole)
    (hc1 : cond1 i) (hc2 : ¬cond2 i) (hc3 : ¬cond3 i)
    (x1 : Vec F S10000x128 .f32) (w1 : Vec F S128x128 .f32) (b1 : Vec F S1x128 .f32)
    (E : Set ℕ) (K : PUnit → sProp 𝕄) :
    iprop(owns (c : Thread nD τ) arg2 fullShare x1 ∗ owns (c : Thread nD τ) arg3 fullShare w1 ∗ owns (c : Thread nD τ) arg4 fullShare b1
        ∗ (∃ d, owns (c : Thread nD τ) arg9 fullShare d)
        ∗ (iprop(owns (c : Thread nD τ) arg2 fullShare x1 ∗ owns (c : Thread nD τ) arg3 fullShare w1 ∗ owns (c : Thread nD τ) arg4 fullShare b1
            ∗ owns (c : Thread nD τ) arg9 fullShare (k0_pay1 x1 w1 b1)) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10) K := by
  have hz2 : (![0, 0] : Fin 2 → ℕ) = fun _ => 0 := by funext a; fin_cases a <;> rfl
  simp only [cc0_body_eq_skeleton]; unfold cc0_body_skel
  unfold owns
  iintro ⟨⟨%f2, %hf2, H2⟩, ⟨%f3, %hf3, H3⟩, ⟨%f4, %hf4, H4⟩, ⟨%d9, %f9, -, H9⟩, Hk⟩
  obtain rfl := harg2.eq_unread hf2; obtain rfl := harg3.eq_unread hf3; obtain rfl := harg4.eq_unread hf4
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H9
  ipureintro
  rw [View.read_writes_cons_whole _ _ hz2]
  simp only [View.readAt_eq_ld, harg2.read_unread, harg3.read_unread, harg4.read_unread, View.ld_unit_zero (S := S10000x128) hz2, View.ld_unit_zero (S := S128x128) hz2, View.ld_unit_zero (S := S1x128) hz2]

end Cert.KernelIdeal.Gen.Hand

end
-- ==== Proof.KIRunB.lean ====
/-
  The body at a point of the middle phase (grid coordinate 1..50). It reads the current block A of 200 rows of the adjacency
  matrix, copies it into the second result's buffer, reads the first layer's output xw from the first scratch array and the
  second layer's weights and bias, and writes relu(A·xw)·W2 + b2 into the 200 rows of the second scratch array that match
  the block, leaving the array's other rows as they were.
-/
import proofs.«147849_g52656299049164_cont_9to1_m_1270_11_alg».proof.Proof.KICases
import proofs.«147849_g52656299049164_cont_9to1_m_1270_11_alg».proof.Proof.LibPieceRead

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runB (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S200x64 .f32) (harg7 : arg7.IsWhole) (arg8 : Memref sig .tc .vmem S200x10000 .f32) (harg8 : arg8.IsWhole) (arg9 : Memref sig .tc .vmem S10000x128 .f32) (harg9 : arg9.IsWhole) (arg10 : Memref sig .tc .vmem S10000x64 .f32) (harg10 : arg10.IsWhole)
    (hc1 : ¬cond1 i) (hc2 : cond2 i) (hc3 : ¬cond3 i)
    (x0 : Vec F S200x10000 .f32) (xw : Vec F S10000x128 .f32) (w2 : Vec F S128x64 .f32) (b2 : Vec F S1x64 .f32) (h : Vec F S10000x64 .f32)
    (E : Set ℕ) (K : PUnit → sProp 𝕄) :
    iprop(owns (c : Thread nD τ) arg1 fullShare x0 ∗ (∃ d, owns (c : Thread nD τ) arg8 fullShare d) ∗ owns (c : Thread nD τ) arg9 fullShare xw
        ∗ owns (c : Thread nD τ) arg5 fullShare w2 ∗ owns (c : Thread nD τ) arg6 fullShare b2 ∗ owns (c : Thread nD τ) arg10 fullShare h
        ∗ (iprop(owns (c : Thread nD τ) arg1 fullShare x0 ∗ owns (c : Thread nD τ) arg8 fullShare x0 ∗ owns (c : Thread nD τ) arg9 fullShare xw
            ∗ owns (c : Thread nD τ) arg5 fullShare w2 ∗ owns (c : Thread nD τ) arg6 fullShare b2
            ∗ owns (c : Thread nD τ) arg10 fullShare (View.patch (k0_off1 i) S200x64.size (k0_pay2 x0 xw w2 b2) h)) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10) K := by
  have hz2 : (![0, 0] : Fin 2 → ℕ) = fun _ => 0 := by funext a; fin_cases a <;> rfl
  simp only [cc0_body_eq_skeleton]; unfold cc0_body_skel
  unfold owns
  iintro ⟨⟨%f1, %hf1, H1⟩, ⟨%d8, %f8, -, H8⟩, ⟨%f9, %hf9, H9⟩, ⟨%f5, %hf5, H5⟩, ⟨%f6, %hf6, H6⟩, ⟨%f10, %hf10, H10⟩, Hk⟩
  obtain rfl := harg1.eq_unread hf1; obtain rfl := harg9.eq_unread hf9; obtain rfl := harg5.eq_unread hf5
  obtain rfl := harg6.eq_unread hf6; obtain rfl := harg10.eq_unread hf10
  sl_exec (disch := first | exact hc1 | exact hc2 | exact hc3)
  sl_step
  iapply Hk
  isplitl [H1]
  · iexists _; isplitr; · ipureintro; exact harg1.read_unread _
    iexact H1
  isplitl [H8]
  · iexists _; isplitr
    swap; · iexact H8
    ipureintro
    rw [View.read_writes_cons_whole _ _ hz2]
    simp only [View.readAt_eq_ld, harg1.read_unread, View.ld_unit_zero (S := S200x10000) hz2]
  isplitl [H9]
  · iexists _; isplitr; · ipureintro; exact harg9.read_unread _
    iexact H9
  isplitl [H5]
  · iexists _; isplitr; · ipureintro; exact harg5.read_unread _
    iexact H5
  isplitl [H6]
  · iexists _; isplitr; · ipureintro; exact harg6.read_unread _
    iexact H6
  iexists _; isplitr
  swap; · iexact H10
  ipureintro
  rw [View.read_writes_cons_patch]
  simp only [View.readAt_eq_ld, harg1.read_unread, harg9.read_unread, harg5.read_unread, harg6.read_unread, View.ld_unit_zero (S := S200x10000) hz2, View.ld_unit_zero (S := S10000x128) hz2, View.ld_unit_zero (S := S128x64) hz2, View.ld_unit_zero (S := S1x64) hz2]
  congr 1
  all_goals exact harg10.read_unread _

end Cert.KernelIdeal.Gen.Hand

end
-- ==== Proof.KIRunC.lean ====
/-
  The body at a point of the last phase (grid coordinate 51..100). It reads the current block A of 200 rows of the adjacency
  matrix and the whole second scratch array h2, and writes their product A·h2 over the first result's buffer.
-/
import proofs.«147849_g52656299049164_cont_9to1_m_1270_11_alg».proof.Proof.KICases
import proofs.«147849_g52656299049164_cont_9to1_m_1270_11_alg».proof.Proof.LibPieceRead

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runC (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S200x64 .f32) (harg7 : arg7.IsWhole) (arg8 : Memref sig .tc .vmem S200x10000 .f32) (harg8 : arg8.IsWhole) (arg9 : Memref sig .tc .vmem S10000x128 .f32) (harg9 : arg9.IsWhole) (arg10 : Memref sig .tc .vmem S10000x64 .f32) (harg10 : arg10.IsWhole)
    (hc1 : ¬cond1 i) (hc2 : ¬cond2 i) (hc3 : cond3 i)
    (x0 : Vec F S200x10000 .f32) (h : Vec F S10000x64 .f32)
    (E : Set ℕ) (K : PUnit → sProp 𝕄) :
    iprop(owns (c : Thread nD τ) arg1 fullShare x0 ∗ owns (c : Thread nD τ) arg10 fullShare h ∗ (∃ d, owns (c : Thread nD τ) arg7 fullShare d)
        ∗ (iprop(owns (c : Thread nD τ) arg1 fullShare x0 ∗ owns (c : Thread nD τ) arg10 fullShare h
            ∗ owns (c : Thread nD τ) arg7 fullShare (k0_pay3 x0 h)) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10) K := by
  have hz2 : (![0, 0] : Fin 2 → ℕ) = fun _ => 0 := by funext a; fin_cases a <;> rfl
  simp only [cc0_body_eq_skeleton]; unfold cc0_body_skel
  unfold owns
  iintro ⟨⟨%f1, %hf1, H1⟩, ⟨%f10, %hf10, H10⟩, ⟨%d7, %f7, -, H7⟩, Hk⟩
  obtain rfl := harg1.eq_unread hf1; obtain rfl := harg10.eq_unread hf10
  sl_exec (disch := first | exact hc1 | exact hc2 | exact hc3)
  sl_step
  iapply Hk
  isplitl [H1]
  · iexists _; isplitr; · ipureintro; exact harg1.read_unread _
    iexact H1
  isplitl [H10]
  · iexists _; isplitr; · ipureintro; exact harg10.read_unread _
    iexact H10
  iexists _; isplitr
  swap; · iexact H7
  ipureintro
  rw [View.read_writes_cons_whole _ _ hz2]
  simp only [View.readAt_eq_ld, harg1.read_unread, harg10.read_unread, View.ld_unit_zero (S := S200x10000) hz2, View.ld_unit_zero (S := S10000x64) hz2]

end Cert.KernelIdeal.Gen.Hand

end
-- ==== Proof.KIFrame.lean ====
/-
  The frame of the kernel program: every execution of @main terminates without a fault and leaves the six argument arrays
  as they were. The proof follows the launch's 101 grid points with an invariant that names what the two scratch arrays
  hold before each point: anything before point 0; from then on xw = x·W1 + b1 in the first, and in the second the rows of
  h2 = relu(A·xw)·W2 + b2 that the middle-phase points done so far have written, over whatever it held at first.

  The first result's buffer is written only in the last phase, one block of A·h2 per point, and is written back at each of
  those points. The second result's buffer takes the adjacency block at each middle-phase point and is written back when
  its block is about to change; from point 51 on the body no longer touches it and its block stays the last one, so the
  write-back at the very last point writes what point 50 left there: the last adjacency block once more.
-/
import proofs.«147849_g52656299049164_cont_9to1_m_1270_11_alg».proof.Proof.KIState
import proofs.«147849_g52656299049164_cont_9to1_m_1270_11_alg».proof.Proof.KIRunA
import proofs.«147849_g52656299049164_cont_9to1_m_1270_11_alg».proof.Proof.KIRunB
import proofs.«147849_g52656299049164_cont_9to1_m_1270_11_alg».proof.Proof.KIRunC

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## Idle and write-back facts in the form the rewriting needs -/

theorem idle6_true (t : Fin cfg0.N) (h : t.val ≤ 50) : cfg0.idle 6 (grid0.coords t) = true := (idle6_iff t).mpr h
theorem idle6_false (t : Fin cfg0.N) (h : 50 < t.val) : cfg0.idle 6 (grid0.coords t) = false :=
  Bool.eq_false_iff.mpr fun hh => by have := (idle6_iff t).mp hh; omega
theorem idle7_true (t : Fin cfg0.N) (h : t.val = 0 ∨ 50 < t.val) : cfg0.idle 7 (grid0.coords t) = true := (idle7_iff t).mpr h
theorem idle7_false (t : Fin cfg0.N) (h1 : 1 ≤ t.val) (h50 : t.val ≤ 50) : cfg0.idle 7 (grid0.coords t) = false :=
  Bool.eq_false_iff.mpr fun hh => by have := (idle7_iff t).mp hh; omega
theorem flush6_false (t : Fin cfg0.N) (h : t.val ≤ 50) : (cfg0.win 6).flush t = false :=
  Bool.eq_false_iff.mpr fun hh => by have := (flush6_iff t).mp hh; omega
theorem flush7_false (t : Fin cfg0.N) (h : t.val = 0 ∨ (50 ≤ t.val ∧ t.val ≤ 99)) : (cfg0.win 7).flush t = false :=
  Bool.eq_false_iff.mpr fun hh => by have := (flush7_iff t).mp hh; omega
theorem flush7_last (t : Fin cfg0.N) (h : t.val = 100) : (cfg0.win 7).flush t = true := (flush7_iff t).mpr (.inr h)

/-! ## The invariant -/

/-- Where the second result's buffer gets its contents: at a point up to 50 from that point's adjacency block, later
    still from point 50's. -/
def p7 (t : Fin cfg0.N) : Fin cfg0.N := if t.val ≤ 50 then t else pt 50

/-- The region's invariant before point `n`. -/
def PhiS (c : Dev nD) : ℕ → sProp 𝕄
  | 0 => Pipeline.ΦA spec0 c
  | n + 1 => iprop(iprop(owns (c : Thread nD τ) scA fullShare (XW m c) ∗ (∃ d0, owns (c : Thread nD τ) scB fullShare (H2cl m c d0 (min n 50)))) ∗ (∃ r, prngReg c r))

theorem PhiS_succ (c : Dev nD) (n : ℕ) :
    PhiS m c (n + 1) = iprop(iprop(owns (c : Thread nD τ) scA fullShare (XW m c) ∗ (∃ d0, owns (c : Thread nD τ) scB fullShare (H2cl m c d0 (min n 50)))) ∗ (∃ r, prngReg c r)) := rfl

theorem PhiS_pos (c : Dev nD) (n : ℕ) (hz : n ≠ 0) :
    PhiS m c n = iprop(iprop(owns (c : Thread nD τ) scA fullShare (XW m c) ∗ (∃ d0, owns (c : Thread nD τ) scB fullShare (H2cl m c d0 (min (n - 1) 50)))) ∗ (∃ r, prngReg c r)) := by
  cases n with
  | zero => exact absurd rfl hz
  | succ n => rfl

/-! ## The proof data -/

/-- After the body at point `t`: every input's buffer still at its block; the first result's at this point's block of
    A·h2; the second result's at the adjacency block it last took. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 0 t) (H2fin m c)
    | ⟨7, _⟩ => iblk m c 0 (p7 t)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay3 (iblk m c 0 t) (H2fin m c) := by dsimp only [dats]
theorem after7 (c : Dev nD) (t : Fin cfg0.N) : (dats m 0 c).after 7 t = iblk m c 0 (p7 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- From point 51 on the second result's buffer holds what point 50 left in it: the points between neither store into it
    nor write it back. -/
theorem before7_late (c : Dev nD) (d) : ∀ (n : ℕ) (t : Fin cfg0.N), t.val = 51 + n → (dats m 0 c).before 7 t d = iblk m c 0 (pt 50)
  | 0, t, ht => by
    have hN : t.val < 101 := lt_of_lt_of_eq t.isLt (show cfg0.N = 101 from N_0)
    rw [(dats m 0 c).before_of_pos 7 t (by omega) ((cfg0.win 7).fetch_out rfl t)]
    rw [flush7_false ⟨t.val - 1, Nat.lt_of_le_of_lt (Nat.sub_le _ _) t.isLt⟩ (.inr (by dsimp only; omega)), if_neg Bool.false_ne_true]
    have hl : (dats m 0 c).left 7 ⟨t.val - 1, Nat.lt_of_le_of_lt (Nat.sub_le _ _) t.isLt⟩ d = (dats m 0 c).kept 7 ⟨t.val - 1, Nat.lt_of_le_of_lt (Nat.sub_le _ _) t.isLt⟩ d := by
      unfold Dat.left; rw [idle7_false ⟨t.val - 1, Nat.lt_of_le_of_lt (Nat.sub_le _ _) t.isLt⟩ (by dsimp only; omega) (by dsimp only; omega)]
    rw [hl]
    unfold Dat.kept
    rw [Pipeline.fill_of_clip_none 7 _ (fun _ => rfl) d ((dats m 0 c).after 7 _), Pipeline.Window.fill_cut, after7]
    congr 1
    unfold p7
    rw [if_pos (by dsimp only; omega)]
    exact Fin.ext (by show t.val - 1 = (pt 50).val; rw [pt_val' 50 (by norm_num)]; omega)
  | n + 1, t, ht => by
    have hN : t.val < 101 := lt_of_lt_of_eq t.isLt (show cfg0.N = 101 from N_0)
    rw [(dats m 0 c).before_of_pos 7 t (by omega) ((cfg0.win 7).fetch_out rfl t)]
    rw [flush7_false ⟨t.val - 1, Nat.lt_of_le_of_lt (Nat.sub_le _ _) t.isLt⟩ (.inr (by dsimp only; omega)), if_neg Bool.false_ne_true]
    have hl : (dats m 0 c).left 7 ⟨t.val - 1, Nat.lt_of_le_of_lt (Nat.sub_le _ _) t.isLt⟩ d = (dats m 0 c).before 7 ⟨t.val - 1, Nat.lt_of_le_of_lt (Nat.sub_le _ _) t.isLt⟩ d := by
      unfold Dat.left; rw [idle7_true ⟨t.val - 1, Nat.lt_of_le_of_lt (Nat.sub_le _ _) t.isLt⟩ (.inr (by dsimp only; omega))]
    rw [hl]
    exact before7_late c d n ⟨t.val - 1, Nat.lt_of_le_of_lt (Nat.sub_le _ _) t.isLt⟩ (by dsimp only; omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem Phi_castSucc (c : Dev nD) (t : Fin cfg0.N) : (dats m 0 c).Φ t.castSucc = PhiS m c t.val := by
  dsimp only [dats]; simp only [Fin.coe_castSucc]

theorem leaves0 (c : Dev nD) (t : Fin cfg0.N) :
    (dats m 0 c).leavesExact 0 t = owns (c : Thread nD τ) (ms0 t) fullShare (iblk m c 0 t) := by
  unfold Dat.leavesExact; rw [live_in 0 (by decide) t, after0]
theorem leaves1 (c : Dev nD) (t : Fin cfg0.N) :
    (dats m 0 c).leavesExact 1 t = owns (c : Thread nD τ) (ms1 t) fullShare (iblk m c 1 t) := by
  unfold Dat.leavesExact; rw [live_in 1 (by decide) t, after1]
theorem leaves2 (c : Dev nD) (t : Fin cfg0.N) :
    (dats m 0 c).leavesExact 2 t = owns (c : Thread nD τ) (ms2 t) fullShare (iblk m c 2 t) := by
  unfold Dat.leavesExact; rw [live_in 2 (by decide) t, after2]
theorem leaves3 (c : Dev nD) (t : Fin cfg0.N) :
    (dats m 0 c).leavesExact 3 t = owns (c : Thread nD τ) (ms3 t) fullShare (iblk m c 3 t) := by
  unfold Dat.leavesExact; rw [live_in 3 (by decide) t, after3]
theorem leaves4 (c : Dev nD) (t : Fin cfg0.N) :
    (dats m 0 c).leavesExact 4 t = owns (c : Thread nD τ) (ms4 t) fullShare (iblk m c 4 t) := by
  unfold Dat.leavesExact; rw [live_in 4 (by decide) t, after4]
theorem leaves5 (c : Dev nD) (t : Fin cfg0.N) :
    (dats m 0 c).leavesExact 5 t = owns (c : Thread nD τ) (ms5 t) fullShare (iblk m c 5 t) := by
  unfold Dat.leavesExact; rw [live_in 5 (by decide) t, after5]

/-- The body's pre- and postcondition with everything that does not depend on the case rewritten: the inputs' buffers at
    their blocks, nothing owed before or after, the invariant after the point spelled out. -/
theorem sound_shape (c : Dev nD) (t : Fin cfg0.N)
    (h : iprop(PhiS m c t.val ∗ (dats m 0 c).owesAt () t.castSucc
        ∗ (∃ d : (cfg0.win 0).block.Idx → Elt F (cfg0.win 0).elt, owns (c : Thread nD τ) (ms0 t) fullShare (iblk m c 0 t))
        ∗ (∃ d : (cfg0.win 1).block.Idx → Elt F (cfg0.win 1).elt, owns (c : Thread nD τ) (ms1 t) fullShare (iblk m c 1 t))
        ∗ (∃ d : (cfg0.win 2).block.Idx → Elt F (cfg0.win 2).elt, owns (c : Thread nD τ) (ms2 t) fullShare (iblk m c 2 t))
        ∗ (∃ d : (cfg0.win 3).block.Idx → Elt F (cfg0.win 3).elt, owns (c : Thread nD τ) (ms3 t) fullShare (iblk m c 3 t))
        ∗ (∃ d : (cfg0.win 4).block.Idx → Elt F (cfg0.win 4).elt, owns (c : Thread nD τ) (ms4 t) fullShare (iblk m c 4 t))
        ∗ (∃ d : (cfg0.win 5).block.Idx → Elt F (cfg0.win 5).elt, owns (c : Thread nD τ) (ms5 t) fullShare (iblk m c 5 t))
        ∗ (∃ d, owns (c : Thread nD τ) (ms6 t) fullShare ((dats m 0 c).before 6 t d))
        ∗ (∃ d, owns (c : Thread nD τ) (ms7 t) fullShare ((dats m 0 c).before 7 t d)))
      ⊢ wp frame (wpE (defs₀ (F := F)) Variants.none c none) Set.univ (bodyAt0 t) (fun _ =>
          iprop(PhiS m c (t.val + 1) ∗ (dats m 0 c).owesAt () t.castSucc
            ∗ owns (c : Thread nD τ) (ms0 t) fullShare (iblk m c 0 t)
            ∗ owns (c : Thread nD τ) (ms1 t) fullShare (iblk m c 1 t)
            ∗ owns (c : Thread nD τ) (ms2 t) fullShare (iblk m c 2 t)
            ∗ owns (c : Thread nD τ) (ms3 t) fullShare (iblk m c 3 t)
            ∗ owns (c : Thread nD τ) (ms4 t) fullShare (iblk m c 4 t)
            ∗ owns (c : Thread nD τ) (ms5 t) fullShare (iblk m c 5 t)
            ∗ (dats m 0 c).leavesExact 6 t ∗ (dats m 0 c).leavesExact 7 t))) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl]
  rw [show (dats m 0 c).Φ t.succ = PhiS m c (t.val + 1) from rfl, Phi_castSucc]
  rw [leaves0, leaves1, leaves2, leaves3, leaves4, leaves5]
  exact h

/-- Point 0: the first layer is computed into the first scratch array; both results' buffers are left alone. -/
theorem sound_A (c : Dev nD) (t : Fin cfg0.N) (h0 : t.val = 0) : bodyPre m c t ⊢ wp frame (wpE (defs₀ (F := F)) Variants.none c none) Set.univ (bodyAt0 t) (fun _ => bodyPost m c t) := by
  apply sound_shape
  have hN : t.val < 101 := lt_of_lt_of_eq t.isLt (show cfg0.N = 101 from N_0)
  have hc1 : cond1 (grid0.coords t) := (hcond1 t).mpr (by omega)
  have hc2 : ¬cond2 (grid0.coords t) := fun h => by have := (hcond2 t).mp h; omega
  have hc3 : ¬cond3 (grid0.coords t) := fun h => by have := (hcond3 t).mp h; omega
  have ht : pt 0 = t := Fin.ext (by rw [h0]; rfl)
  rw [Dat.leavesExact_idle (dats m 0 c) 6 t (idle6_true t (by omega)) (flush6_false t (by omega))]
  rw [Dat.leavesExact_idle (dats m 0 c) 7 t (idle7_true t (.inl h0)) (flush7_false t (.inl h0))]
  rw [PhiS_succ, show PhiS m c t.val = Pipeline.ΦA spec0 c from by rw [h0]; rfl, PhiA0_eq]
  simp only [show min t.val 50 = 0 from by omega, H2cl_zero]
  unfold XW; rw [ht]
  iintro ⟨⟨⟨HA, ⟨%dB, HB⟩⟩, Hg⟩, Ho, ⟨%d0, H0⟩, ⟨%d1, H1⟩, ⟨%d2, H2⟩, ⟨%d3, H3⟩, ⟨%d4, H4⟩, ⟨%d5, H5⟩, H6, H7⟩
  iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) hc1 hc2 hc3 (iblk m c 1 t) (iblk m c 2 t) (iblk m c 3 t) Set.univ _)
  isplitl [H1]; · iexact H1
  isplitl [H2]; · iexact H2
  isplitl [H3]; · iexact H3
  isplitl [HA]; · iexact HA
  iintro ⟨H1, H2, H3, HA⟩
  isplitl [HA HB Hg]
  · isplitl [HA HB]
    · isplitl [HA]; · iexact HA
      iexists dB; iexact HB
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A point of the middle phase: the second result's buffer takes the adjacency block, and the second scratch array gains
    this point's 200 rows. -/
theorem sound_B (c : Dev nD) (t : Fin cfg0.N) (h1 : 1 ≤ t.val) (h50 : t.val ≤ 50) : bodyPre m c t ⊢ wp frame (wpE (defs₀ (F := F)) Variants.none c none) Set.univ (bodyAt0 t) (fun _ => bodyPost m c t) := by
  apply sound_shape
  have hN : t.val < 101 := lt_of_lt_of_eq t.isLt (show cfg0.N = 101 from N_0)
  have hc1 : ¬cond1 (grid0.coords t) := fun h => by have := (hcond1 t).mp h; omega
  have hc2 : cond2 (grid0.coords t) := (hcond2 t).mpr ⟨by omega, by omega⟩
  have hc3 : ¬cond3 (grid0.coords t) := fun h => by have := (hcond3 t).mp h; omega
  rw [Dat.leavesExact_idle (dats m 0 c) 6 t (idle6_true t h50) (flush6_false t h50)]
  rw [show (dats m 0 c).leavesExact 7 t = owns (c : Thread nD τ) (ms7 t) fullShare ((dats m 0 c).after 7 t) from by
    unfold Dat.leavesExact; rw [idle7_false t h1 h50], after7, show p7 t = t from if_pos h50]
  rw [PhiS_succ, PhiS_pos m c t.val (by omega)]
  simp only [show min (t.val - 1) 50 = t.val - 1 from by omega, show min t.val 50 = t.val from by omega]
  iintro ⟨⟨⟨HA, ⟨%dB, HB⟩⟩, Hg⟩, Ho, ⟨%d0, H0⟩, ⟨%d1, H1⟩, ⟨%d2, H2⟩, ⟨%d3, H3⟩, ⟨%d4, H4⟩, ⟨%d5, H5⟩, H6, ⟨%d7, H7⟩⟩
  iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) hc1 hc2 hc3 (iblk m c 0 t) (XW m c) (iblk m c 4 t) (iblk m c 5 t) (H2cl m c dB (t.val - 1)) Set.univ _)
  isplitl [H0]; · iexact H0
  isplitl [H7]; · iexists _; iexact H7
  isplitl [HA]; · iexact HA
  isplitl [H4]; · iexact H4
  isplitl [H5]; · iexact H5
  isplitl [HB]; · iexact HB
  iintro ⟨H0, H7, HA, H4, H5, HB⟩
  rw [H2cl_step m c dB t h1 h50]
  isplitl [HA HB Hg]
  · isplitl [HA HB]
    · isplitl [HA]; · iexact HA
      iexists dB; iexact HB
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A point of the last phase: the first result's buffer takes this point's block of A·h2; the second result's buffer is
    left alone, and at the very last point, where it is written back, it still holds what point 50 left. -/
theorem sound_C (c : Dev nD) (t : Fin cfg0.N) (h51 : 51 ≤ t.val) : bodyPre m c t ⊢ wp frame (wpE (defs₀ (F := F)) Variants.none c none) Set.univ (bodyAt0 t) (fun _ => bodyPost m c t) := by
  apply sound_shape
  have hN : t.val < 101 := lt_of_lt_of_eq t.isLt (show cfg0.N = 101 from N_0)
  have hc1 : ¬cond1 (grid0.coords t) := fun h => by have := (hcond1 t).mp h; omega
  have hc2 : ¬cond2 (grid0.coords t) := fun h => by have := (hcond2 t).mp h; omega
  have hc3 : cond3 (grid0.coords t) := (hcond3 t).mpr (by omega)
  rw [show (dats m 0 c).leavesExact 6 t = owns (c : Thread nD τ) (ms6 t) fullShare ((dats m 0 c).after 6 t) from by
    unfold Dat.leavesExact; rw [idle6_false t (by omega)], after6]
  rw [PhiS_succ, PhiS_pos m c t.val (by omega)]
  simp only [show min (t.val - 1) 50 = 50 from by omega, show min t.val 50 = 50 from by omega, H2cl_full]
  by_cases h100 : t.val = 100
  · rw [show (dats m 0 c).leavesExact 7 t = owns (c : Thread nD τ) (ms7 t) fullShare ((dats m 0 c).after 7 t) from by
      unfold Dat.leavesExact; rw [idle7_true t (.inr (by omega)), flush7_last t h100], after7, show p7 t = pt 50 from if_neg (by omega)]
    have hb7 : ∀ d, (dats m 0 c).before 7 t d = iblk m c 0 (pt 50) := fun d => before7_late m c d (t.val - 51) t (by omega)
    simp only [hb7]
    iintro ⟨⟨⟨HA, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) hc1 hc2 hc3 (iblk m c 0 t) (H2fin m c) Set.univ _)
    isplitl [H0]; · iexact H0
    isplitl [HB]; · iexact HB
    isplitl [H6]; · iexists _; iexact H6
    iintro ⟨H0, HB, H6⟩
    isplitl [HA HB Hg]
    · isplitl [HA HB]
      · isplitl [HA]; · iexact HA
        iexists dB; iexact HB
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dats m 0 c) 7 t (idle7_true t (.inr (by omega))) (flush7_false t (.inr ⟨by omega, by omega⟩))]
    iintro ⟨⟨⟨HA, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩, H7⟩
    iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scB (Memref.isWhole_whole _) hc1 hc2 hc3 (iblk m c 0 t) (H2fin m c) Set.univ _)
    isplitl [H0]; · iexact H0
    isplitl [HB]; · iexact HB
    isplitl [H6]; · iexists _; iexact H6
    iintro ⟨H0, HB, H6⟩
    isplitl [HA HB Hg]
    · isplitl [HA HB]
      · isplitl [HA]; · iexact HA
        iexists dB; iexact HB
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body at any point: one of the three cases. -/
theorem sound_body (c : Dev nD) (t : Fin cfg0.N) : bodyPre m c t ⊢ wp frame (wpE (defs₀ (F := F)) Variants.none c none) Set.univ (bodyAt0 t) (fun _ => bodyPost m c t) := by
  by_cases h0 : t.val = 0
  · exact sound_A m c t h0
  · by_cases h50 : t.val ≤ 50
    · exact sound_B m c t (by omega) h50
    · exact sound_C m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scratch arrays back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 101 := N_0; omega), PhiA0_eq]
  iintro ⟨⟨HA, ⟨%d0, HB⟩⟩, Hg⟩
  isplitl [HA HB]
  · isplitl [HA]
    · iexists _; iexact HA
    · iexists _; iexact HB
  iexact Hg

/-! ## The run -/

set_option backward.isDefEq.respectTransparency.types false in
/-- Every weakly fair execution of @main terminates, and every final state has each array of the launch at what the
    write-backs leave in it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Gen.Hand

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibDenseLayer.lean ====
/-
  A dense layer as a kernel body spells it, read at an index on the extended reals. The body narrows both operands of the
  matrix product to a shorter float format (the identity on the extended reals), multiplies into a zero accumulator and adds a
  bias held as a one-row matrix spread down the rows. At entry (r, j) that is the sum over the contraction position k of
  x(r, k) · w(k, j), plus b(0, j). The weight and the bias pass through a reshape to their own shape, which is the identity.
  Nothing here depends on a program: the product's dimension numbers enter through the hypothesis that they are those of a
  plain [M, K] × [K, N] product.
-/
import proofs.«147849_g52656299049164_cont_9to1_m_1270_11_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace DenseLayer

open Idealize.ShloMosaic Idealize.ShloMosaic.ValueIdx

variable {M K N : Nat}

/-- The product of a narrowed activation block with a narrowed, identically reshaped weight block, into the zero
    accumulator, at entry (r, j): the sum over k of x(r, k) · w(k, j). -/
theorem matmul_narrowed_apply (D : DotDims ⟨2, ![M, K]⟩ ⟨2, ![K, N]⟩ ⟨2, ![M, N]⟩) (hD : PlainDot.IsPlain D)
    (prec : Option ContractPrecision) (x : FVec Ideal ⟨2, ![M, K]⟩ .f32) (w : FVec Ideal ⟨2, ![K, N]⟩ .f32)
    (hw : (⟨2, ![K, N]⟩ : Shape).ShapeCasts ⟨2, ![K, N]⟩) (h1 h2 : FTy.bf16.bits < FTy.f32.bits) (r : Fin M) (j : Fin N) :
    matmul D prec (truncf .bf16 x h1) (truncf .bf16 (shapeCast ⟨2, ![K, N]⟩ w hw) h2)
        (constant (F := Ideal) ⟨2, ![M, N]⟩ .f32 0x00000000#32) (ix2 r j)
      = ∑ k : Fin K, x (ix2 r k) * w (ix2 k j) := by
  rw [shapeCast_self]
  exact PlainDot.matmul_zero_apply D hD prec (truncf .bf16 x h1) (truncf .bf16 w h2) r j

/-- A bias row, identically reshaped and spread down the rows, at entry (r, j): b(0, j). -/
theorem bias_row_apply {α : Type} (b : (⟨2, ![1, N]⟩ : Shape).Idx → α) (hb : (⟨2, ![1, N]⟩ : Shape).ShapeCasts ⟨2, ![1, N]⟩)
    (hbb : (⟨2, ![1, N]⟩ : Shape).Broadcasts ⟨2, ![M, N]⟩) (r : Fin M) (j : Fin N) :
    broadcastTo ⟨2, ![M, N]⟩ (shapeCast ⟨2, ![1, N]⟩ b hb) hbb (ix2 r j) = b (ix2 (0 : Fin 1) j) := by
  rw [shapeCast_self]
  exact broadcastTo_1b_ab_apply b hbb r j

/-- The whole layer at entry (r, j). -/
theorem dense_apply (D : DotDims ⟨2, ![M, K]⟩ ⟨2, ![K, N]⟩ ⟨2, ![M, N]⟩) (hD : PlainDot.IsPlain D)
    (prec : Option ContractPrecision) (x : FVec Ideal ⟨2, ![M, K]⟩ .f32) (w : FVec Ideal ⟨2, ![K, N]⟩ .f32)
    (b : FVec Ideal ⟨2, ![1, N]⟩ .f32)
    (hw : (⟨2, ![K, N]⟩ : Shape).ShapeCasts ⟨2, ![K, N]⟩) (h1 h2 : FTy.bf16.bits < FTy.f32.bits)
    (hb : (⟨2, ![1, N]⟩ : Shape).ShapeCasts ⟨2, ![1, N]⟩) (hbb : (⟨2, ![1, N]⟩ : Shape).Broadcasts ⟨2, ![M, N]⟩)
    (r : Fin M) (j : Fin N) :
    addf (matmul D prec (truncf .bf16 x h1) (truncf .bf16 (shapeCast ⟨2, ![K, N]⟩ w hw) h2)
        (constant (F := Ideal) ⟨2, ![M, N]⟩ .f32 0x00000000#32))
      (broadcastTo ⟨2, ![M, N]⟩ (shapeCast ⟨2, ![1, N]⟩ b hb) hbb) (ix2 r j)
      = (∑ k : Fin K, x (ix2 r k) * w (ix2 k j)) + b (ix2 (0 : Fin 1) j) := by
  rw [addf_apply, matmul_narrowed_apply D hD prec x w hw h1 h2 r j, bias_row_apply b hb hbb r j]

end DenseLayer

end
-- ==== Proof.KIPayloads.lean ====
/-
  What the body's three stores write, read at an entry on the extended reals. The first point's store holds, at (l, j), the sum
  over p of x(l, p)·W1(p, j), plus the bias row's entry j. A middle-phase point's store holds, at (p, c), the sum over j of
  max(sum over l of A(p, l)·xw(l, j), 0)·W2(j, c), plus the bias row's entry c, where A is the point's block of the adjacency
  matrix. A last-phase point's store holds, at (p, c), the sum over k of A(p, k)·h2(k, c). A product into the zero accumulator is
  the plain sum of products, in any order; the identical recasts are the identity; the bias row is spread down the rows.
-/
import proofs.«147849_g52656299049164_cont_9to1_m_1270_11_alg».proof.Proof.Gen.KernelIdeal.Skeleton
import proofs.«147849_g52656299049164_cont_9to1_m_1270_11_alg».proof.Proof.LibPlainDot
import proofs.«147849_g52656299049164_cont_9to1_m_1270_11_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen.Hand

open Idealize.ShloMosaic Idealize.ShloMosaic.ValueIdx

/-- The dimension numbers of this product are those of a plain matrix product. -/
theorem plain1 : PlainDot.IsPlain dot_S10000x128_S128x128_S10000x128_1_0_0_1_n_n where
  rank := rfl
  size := rfl
  lhs0 i q := by
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  lhs1 i q := dot_S10000x128_S128x128_S10000x128_1_0_0_1_n_n.lhsIdx_val_of_single rfl i q
  rhs0 i q := dot_S10000x128_S128x128_S10000x128_1_0_0_1_n_n.rhsIdx_val_of_single rfl i q
  rhs1 i q := by
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl

/-- The dimension numbers of this product are those of a plain matrix product. -/
theorem plain2 : PlainDot.IsPlain dot_S200x10000_S10000x128_S200x128_1_0_0_1_n_n where
  rank := rfl
  size := rfl
  lhs0 i q := by
    unfold DotDims.lhsIdx
    rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
    rfl
  lhs1 i q := dot_S200x10000_S10000x128_S200x128_1_0_0_1_n_n.lhsIdx_val_of_single rfl i q
  rhs0 i q := dot_S200x10000_S10000x128_S200x128_1_0_0_1_n_n.rhsIdx_val_of_single rfl i q
  rhs1 i q := by
    unfold DotDims.rhsIdx
    rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
    rfl

/-- The dimension numbers of this product are those of a plain matrix product. -/
theorem plain3 : PlainDot.IsPlain dot_S200x128_S128x64_S200x64_1_0_0_1_n_n where
  rank := rfl
  size := rfl
  lhs0 i q := by
    unfold DotDims.lhsIdx
    rw [dif_neg (show ¬(0 : Fin S200x128.rank) ∈ dot_S200x128_S128x64_S200x64_1_0_0_1_n_n.lhsBatch by decide), dif_pos (show (0 : Fin S200x128.rank) ∈ dot_S200x128_S128x64_S200x64_1_0_0_1_n_n.lhsNonContracting by decide)]
    rfl
  lhs1 i q := dot_S200x128_S128x64_S200x64_1_0_0_1_n_n.lhsIdx_val_of_single rfl i q
  rhs0 i q := dot_S200x128_S128x64_S200x64_1_0_0_1_n_n.rhsIdx_val_of_single rfl i q
  rhs1 i q := by
    unfold DotDims.rhsIdx
    rw [dif_neg (show ¬(1 : Fin S128x64.rank) ∈ dot_S200x128_S128x64_S200x64_1_0_0_1_n_n.rhsBatch by decide), dif_pos (show (1 : Fin S128x64.rank) ∈ dot_S200x128_S128x64_S200x64_1_0_0_1_n_n.rhsNonContracting by decide)]
    rfl

/-- The dimension numbers of this product are those of a plain matrix product. -/
theorem plain4 : PlainDot.IsPlain dot_S200x10000_S10000x64_S200x64_1_0_0_1_n_n where
  rank := rfl
  size := rfl
  lhs0 i q := by
    unfold DotDims.lhsIdx
    rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
    rfl
  lhs1 i q := dot_S200x10000_S10000x64_S200x64_1_0_0_1_n_n.lhsIdx_val_of_single rfl i q
  rhs0 i q := dot_S200x10000_S10000x64_S200x64_1_0_0_1_n_n.rhsIdx_val_of_single rfl i q
  rhs1 i q := by
    unfold DotDims.rhsIdx
    rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
    rfl

/-- The first layer's store at (l, j). -/
theorem pay1_apply (x : FVec Ideal S10000x128 .f32) (w1 : FVec Ideal S128x128 .f32) (b1 : FVec Ideal S1x128 .f32) (l : Fin 10000) (j : Fin 128) :
    k0_pay1 (F := Ideal) x w1 b1 (ix2 l j) = (∑ p : Fin 128, x (ix2 l p) * w1 (ix2 p j)) + b1 (ix2 (0 : Fin 1) j) := by
  unfold k0_pay1
  rw [shapeCast_self, addf_apply, DenseLayer.bias_row_apply b1 _ _ l j]
  exact congrArg (· + b1 (ix2 (0 : Fin 1) j)) (PlainDot.matmul_zero_apply _ plain1 none x w1 l j)

/-- A middle-phase point's store at (p, c). -/
theorem pay2_apply (a : FVec Ideal S200x10000 .f32) (xw : FVec Ideal S10000x128 .f32) (w2 : FVec Ideal S128x64 .f32) (b2 : FVec Ideal S1x64 .f32)
    (p : Fin 200) (cc : Fin 64) :
    k0_pay2 (F := Ideal) a xw w2 b2 (ix2 p cc)
      = (∑ j : Fin 128, max (∑ l : Fin 10000, a (ix2 p l) * xw (ix2 l j)) (Ideal.ofBits .f32 0x00000000#32) * w2 (ix2 j cc))
        + b2 (ix2 (0 : Fin 1) cc) := by
  unfold k0_pay2
  rw [shapeCast_self, addf_apply, DenseLayer.bias_row_apply b2 _ _ p cc]
  refine congrArg (· + b2 (ix2 (0 : Fin 1) cc)) ?_
  refine (PlainDot.matmul_zero_apply _ plain3 none _ w2 p cc).trans ?_
  refine Finset.sum_congr rfl fun j _ => ?_
  rw [maximumf_apply]
  exact congrArg (fun z => max z (Ideal.ofBits .f32 0x00000000#32) * w2 (ix2 j cc)) (PlainDot.matmul_zero_apply _ plain2 none a xw p j)

/-- A last-phase point's store at (p, c). -/
theorem pay3_apply (a : FVec Ideal S200x10000 .f32) (h2 : FVec Ideal S10000x64 .f32) (p : Fin 200) (cc : Fin 64) :
    k0_pay3 (F := Ideal) a h2 (ix2 p cc) = ∑ k : Fin 10000, a (ix2 p k) * h2 (ix2 k cc) := by
  unfold k0_pay3
  exact PlainDot.matmul_zero_apply _ plain4 none a h2 p cc

end Cert.KernelIdeal.Gen.Hand

end
-- ==== Proof.RefStages.lean ====
/-
  The reference program's three layers read at an entry, on the extended reals. Its first dense layer at (l, j) is the sum over
  p of x(l, p)·W1(p, j), plus b1(j). Its second layer's input at (k, c) is the sum over j of
  max(sum over l of A(k, l)·xw(l, j), 0)·W2(j, c), plus b2(c), where xw is the first layer. Its result at (r, c) is the sum over k
  of A(r, k)·h2(k, c), where h2 is that input. Each is the generated reading of the stage with the composed index functions
  replaced by the coordinates they denote.
-/
import proofs.«147849_g52656299049164_cont_9to1_m_1270_11_alg».proof.Proof.Gen.ReferenceIdeal.Read
import Idealize.ShloMosaic.Lib.ValueIdx

noncomputable section

namespace Cert.ReferenceIdeal.RefValue

open Cert.ReferenceIdeal Cert.ReferenceIdeal.Read Idealize.ShloMosaic Idealize.ShloMosaic.ValueIdx

/-- The first dense layer at (l, j). -/
theorem ref3_apply (x1 : (⟨S10000x128, .f32⟩ : BufTy).Contents (Elt Ideal)) (x2 : (⟨S128x128, .f32⟩ : BufTy).Contents (Elt Ideal)) (x3 : (⟨S128, .f32⟩ : BufTy).Contents (Elt Ideal)) (l : Fin 10000) (j : Fin 128) :
    val_main_v3 (F := Ideal) x1 x2 x3 (ix2 l j) = (∑ p : Fin 128, x1 (ix2 l p) * x2 (ix2 p j)) + x3 (ix1 j) := by
  rw [val_main_v3_apply, val_main_v0_apply, val_main_v2_apply, val_main_v1_apply]
  have e1 : ∀ p : Fin 128, lidx_main_v0 (ix2 l j) p = ix2 l p := fun p => funext fun a => Fin.ext (by match a with | ⟨0, _⟩ => rfl | ⟨1, _⟩ => rfl)
  have e2 : ∀ p : Fin 128, ridx_main_v0 (ix2 l j) p = ix2 p j := fun p => funext fun a => Fin.ext (by match a with | ⟨0, _⟩ => rfl | ⟨1, _⟩ => rfl)
  have e3 : idx_main_v1 (idx_main_v2 (ix2 l j)) = ix1 j := funext fun a => Fin.ext (by match a with | ⟨0, _⟩ => rfl)
  simp only [e1, e2, e3]
  rfl

/-- The second layer's input at (k, c), over the first layer. -/
theorem ref9_apply (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (k : Fin 10000) (cc : Fin 64) :
    val_main_v9 (F := Ideal) x0 x1 x2 x3 x4 x5 (ix2 k cc)
      = (∑ j : Fin 128, max (∑ l : Fin 10000, x0 (ix2 k l) * val_main_v3 (F := Ideal) x1 x2 x3 (ix2 l j)) (Ideal.ofBits .f32 0x00000000#32) * x4 (ix2 j cc))
        + x5 (ix1 cc) := by
  rw [val_main_v9_apply, val_main_v6_apply, val_main_v8_apply, val_main_v7_apply]
  have e6l : ∀ j : Fin 128, lidx_main_v6 (ix2 k cc) j = ix2 k j := fun j => funext fun a => Fin.ext (by match a with | ⟨0, _⟩ => rfl | ⟨1, _⟩ => rfl)
  have e6r : ∀ j : Fin 128, ridx_main_v6 (ix2 k cc) j = ix2 j cc := fun j => funext fun a => Fin.ext (by match a with | ⟨0, _⟩ => rfl | ⟨1, _⟩ => rfl)
  have e8 : idx_main_v7 (idx_main_v8 (ix2 k cc)) = ix1 cc := funext fun a => Fin.ext (by match a with | ⟨0, _⟩ => rfl)
  simp only [e6l, e6r, e8, val_main_v5_apply, val_main_v4_apply, val_main_call0_v0_apply, val_main_call0_cst_apply]
  have e4l : ∀ (j : Fin 128) (l : Fin 10000), lidx_main_v4 (ix2 k j) l = ix2 k l := fun j l => funext fun a => Fin.ext (by match a with | ⟨0, _⟩ => rfl | ⟨1, _⟩ => rfl)
  have e4r : ∀ (j : Fin 128) (l : Fin 10000), ridx_main_v4 (ix2 k j) l = ix2 l j := fun j l => funext fun a => Fin.ext (by match a with | ⟨0, _⟩ => rfl | ⟨1, _⟩ => rfl)
  simp only [e4l, e4r]
  rfl

/-- The result at (r, c), over the second layer's input. -/
theorem ref10_apply (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 10000) (cc : Fin 64) :
    val_main_v10 (F := Ideal) x0 x1 x2 x3 x4 x5 (ix2 r cc)
      = ∑ k : Fin 10000, x0 (ix2 r k) * val_main_v9 (F := Ideal) x0 x1 x2 x3 x4 x5 (ix2 k cc) := by
  rw [val_main_v10_apply]
  have el : ∀ k : Fin 10000, lidx_main_v10 (ix2 r cc) k = ix2 r k := fun k => funext fun a => Fin.ext (by match a with | ⟨0, _⟩ => rfl | ⟨1, _⟩ => rfl)
  have er : ∀ k : Fin 10000, ridx_main_v10 (ix2 r cc) k = ix2 k cc := fun k => funext fun a => Fin.ext (by match a with | ⟨0, _⟩ => rfl | ⟨1, _⟩ => rfl)
  simp only [el, er]

end Cert.ReferenceIdeal.RefValue

end
-- ==== Proof.KIValue.lean ====
/-
  The two results of the kernel program as functions of its arguments, on the extended reals.

  Every window's block is the matching rectangle of its array: the adjacency window's block at a point holds 200 consecutive
  rows of the adjacency matrix, and the five other input windows hold their whole arrays (the two bias rows are the bias
  vectors recast as one-row matrices). So what point 0 leaves in the first scratch array is the reference's first dense layer,
  entry by entry; what the middle phase leaves in the second scratch array is the reference's second-layer input, row r coming
  from the point whose block contains row r; and the block a last-phase point writes back is the matching 200 rows of the
  reference's result. Those blocks tile the first result. The second result is tiled by the adjacency blocks written back at
  points 1..49 and, for its last 200 rows, at the last point.
-/
import proofs.«147849_g52656299049164_cont_9to1_m_1270_11_alg».proof.Proof.KIFrame
import proofs.«147849_g52656299049164_cont_9to1_m_1270_11_alg».proof.Proof.KIPayloads
import proofs.«147849_g52656299049164_cont_9to1_m_1270_11_alg».proof.Proof.RefStages
import Idealize.ShloMosaic.Lib.Pipeline.Value
import Idealize.ShloMosaic.Lib.ValueLayout
import Idealize.ShloMosaic.Lib.StableHlo.Run

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## The blocks of the argument arrays -/

/-- The five input windows beside the adjacency window always sit on block (0, 0). -/
theorem idxc : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The adjacency window's block at point t, entry (p, l): row (block index)·200 + p of the adjacency matrix. -/
theorem blk0_apply (c : Dev nD) (t : Fin cfg0.N) (p : Fin 200) (l : Fin 10000) (r : Fin 10000)
    (hr : r.val = (if t.val ≤ 50 then t.val - 1 else t.val - 51) * 200 + p.val) :
    iblk m c 0 t (ix2 p l) = m ((c : Thread nD τ).loc main_arg0) (ix2 r l) := by
  rw [← V_main_arg0 m c]
  show V m c main_arg0 (((cfg0.win 0).blk t).view.emb (ix2 p l)) = V m c main_arg0 (ix2 r l)
  refine congrArg _ (funext fun a => Fin.ext ?_)
  match a with
  | ⟨0, _⟩ => show win0_0.index t (0 : Fin 2) * 200 + 1 * p.val = r.val; rw [idx0_row t, hr, Nat.one_mul]
  | ⟨1, _⟩ => show win0_0.index t (1 : Fin 2) * 10000 + 1 * l.val = l.val; rw [idx0_col t]; omega

theorem blk1_apply (c : Dev nD) (t : Fin cfg0.N) (r : Fin 10000) (j : Fin 128) :
    iblk m c 1 t (ix2 r j) = m ((c : Thread nD τ).loc main_arg1) (ix2 r j) := by
  have hx := idxc t
  rw [← V_main_arg1 m c]
  show V m c main_arg1 (((cfg0.win 1).blk t).view.emb (ix2 r j)) = V m c main_arg1 (ix2 r j)
  refine congrArg _ (funext fun a => Fin.ext ?_)
  match a with
  | ⟨0, _⟩ => show win0_1.index t (0 : Fin 2) * 10000 + 1 * r.val = r.val; rw [hx.1]; omega
  | ⟨1, _⟩ => show win0_1.index t (1 : Fin 2) * 128 + 1 * j.val = j.val; rw [hx.2.1]; omega

theorem blk2_apply (c : Dev nD) (t : Fin cfg0.N) (r : Fin 128) (j : Fin 128) :
    iblk m c 2 t (ix2 r j) = m ((c : Thread nD τ).loc main_arg2) (ix2 r j) := by
  have hx := idxc t
  rw [← V_main_arg2 m c]
  show V m c main_arg2 (((cfg0.win 2).blk t).view.emb (ix2 r j)) = V m c main_arg2 (ix2 r j)
  refine congrArg _ (funext fun a => Fin.ext ?_)
  match a with
  | ⟨0, _⟩ => show win0_2.index t (0 : Fin 2) * 128 + 1 * r.val = r.val; rw [hx.2.2.1]; omega
  | ⟨1, _⟩ => show win0_2.index t (1 : Fin 2) * 128 + 1 * j.val = j.val; rw [hx.2.2.2.1]; omega

theorem blk4_apply (c : Dev nD) (t : Fin cfg0.N) (r : Fin 128) (j : Fin 64) :
    iblk m c 4 t (ix2 r j) = m ((c : Thread nD τ).loc main_arg4) (ix2 r j) := by
  have hx := idxc t
  rw [← V_main_arg4 m c]
  show V m c main_arg4 (((cfg0.win 4).blk t).view.emb (ix2 r j)) = V m c main_arg4 (ix2 r j)
  refine congrArg _ (funext fun a => Fin.ext ?_)
  match a with
  | ⟨0, _⟩ => show win0_4.index t (0 : Fin 2) * 128 + 1 * r.val = r.val; rw [hx.2.2.2.2.2.2.1]; omega
  | ⟨1, _⟩ => show win0_4.index t (1 : Fin 2) * 64 + 1 * j.val = j.val; rw [hx.2.2.2.2.2.2.2.1]; omega

/-- The first bias row as the region finds it: the bias vector recast as a one-row matrix by @main. -/
theorem V_v0 (c : Dev nD) : (V m c main_v0 : S1x128.Idx → EReal) = shapeCast S1x128 (m ((c : Thread nD τ).loc main_arg3)) Facts₀.shapeCasts_S128_S1x128 := by
  dsimp only [V, hostOps0]; after_results; rfl
/-- The second bias row, likewise. -/
theorem V_v1 (c : Dev nD) : (V m c main_v1 : S1x64.Idx → EReal) = shapeCast S1x64 (m ((c : Thread nD τ).loc main_arg5)) Facts₀.shapeCasts_S64_S1x64 := by
  dsimp only [V, hostOps0]; after_results; rfl

theorem blk3_apply (c : Dev nD) (t : Fin cfg0.N) (j : Fin 128) :
    iblk m c 3 t (ix2 (0 : Fin 1) j) = m ((c : Thread nD τ).loc main_arg3) (ix1 j) := by
  have hx := idxc t
  have hemb : ((cfg0.win 3).blk t).view.emb (ix2 (0 : Fin 1) j) = ix2 (0 : Fin 1) j := funext fun a => Fin.ext (by
    match a with
    | ⟨0, _⟩ => show win0_3.index t (0 : Fin 2) * 1 + 1 * (0 : Fin 1).val = (0 : Fin 1).val; rw [hx.2.2.2.2.1]; rfl
    | ⟨1, _⟩ => show win0_3.index t (1 : Fin 2) * 128 + 1 * j.val = j.val; rw [hx.2.2.2.2.2.1]; omega)
  show V m c main_v0 (((cfg0.win 3).blk t).view.emb (ix2 (0 : Fin 1) j)) = _
  rw [hemb, V_v0 m c]
  exact shapeCast_a_1a_apply _ _ (0 : Fin 1) j

theorem blk5_apply (c : Dev nD) (t : Fin cfg0.N) (j : Fin 64) :
    iblk m c 5 t (ix2 (0 : Fin 1) j) = m ((c : Thread nD τ).loc main_arg5) (ix1 j) := by
  have hx := idxc t
  have hemb : ((cfg0.win 5).blk t).view.emb (ix2 (0 : Fin 1) j) = ix2 (0 : Fin 1) j := funext fun a => Fin.ext (by
    match a with
    | ⟨0, _⟩ => show win0_5.index t (0 : Fin 2) * 1 + 1 * (0 : Fin 1).val = (0 : Fin 1).val; rw [hx.2.2.2.2.2.2.2.2.1]; rfl
    | ⟨1, _⟩ => show win0_5.index t (1 : Fin 2) * 64 + 1 * j.val = j.val; rw [hx.2.2.2.2.2.2.2.2.2]; omega)
  show V m c main_v1 (((cfg0.win 5).blk t).view.emb (ix2 (0 : Fin 1) j)) = _
  rw [hemb, V_v1 m c]
  exact shapeCast_a_1a_apply _ _ (0 : Fin 1) j

/-! ## The carried state is the reference's stages -/

/-- The first scratch array after point 0 is the reference's first dense layer. -/
theorem XW_apply (c : Dev nD) (l : Fin 10000) (j : Fin 128) :
    XW m c (ix2 l j) = Cert.ReferenceIdeal.Read.val_main_v3 (F := Ideal) (m ((c : Thread nD τ).loc main_arg1)) (m ((c : Thread nD τ).loc main_arg2)) (m ((c : Thread nD τ).loc main_arg3)) (ix2 l j) := by
  unfold XW
  refine (pay1_apply (iblk m c 1 (pt 0)) (iblk m c 2 (pt 0)) (iblk m c 3 (pt 0)) l j).trans ?_
  rw [Cert.ReferenceIdeal.RefValue.ref3_apply, blk3_apply]
  refine congrArg (· + _) (Finset.sum_congr rfl fun p _ => ?_)
  rw [blk1_apply, blk2_apply]

/-- What the middle-phase point numbered k writes, at (p, c), is entry ((k - 1)·200 + p, c) of the reference's second-layer
    input. -/
theorem pay2At_apply (c : Dev nD) (k : ℕ) (hk1 : 1 ≤ k) (hk : k ≤ 50) (p : Fin 200) (cc : Fin 64) (r : Fin 10000)
    (hr : r.val = (k - 1) * 200 + p.val) :
    pay2At m c k (ix2 p cc) = Cert.ReferenceIdeal.Read.val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r cc) := by
  unfold pay2At
  refine (pay2_apply (iblk m c 0 (pt k)) (XW m c) (iblk m c 4 (pt k)) (iblk m c 5 (pt k)) p cc).trans ?_
  rw [Cert.ReferenceIdeal.RefValue.ref9_apply, blk5_apply]
  refine congrArg (· + _) (Finset.sum_congr rfl fun j _ => ?_)
  rw [blk4_apply]
  refine congrArg (fun z => max z _ * _) (Finset.sum_congr rfl fun l _ => ?_)
  rw [XW_apply, blk0_apply m c (pt k) p l r (by rw [pt_val' k (by omega), if_pos hk]; exact hr)]

/-- The second scratch array after the middle phase is the reference's second-layer input. -/
theorem H2fin_apply (c : Dev nD) (r : Fin 10000) (cc : Fin 64) :
    H2fin m c (ix2 r cc) = Cert.ReferenceIdeal.Read.val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r cc) := by
  have hr := r.isLt
  show pay2At m c (r.val / 200 + 1) (ix2 (n0 := 200) (n1 := 64) ⟨r.val % 200, Nat.mod_lt _ (by norm_num)⟩ cc) = _
  exact pay2At_apply m c (r.val / 200 + 1) (by omega) (by omega) _ cc r (by show r.val = (r.val / 200 + 1 - 1) * 200 + r.val % 200; omega)

/-! ## The first result -/

/-- The reference's result of the arguments as the launch finds them. -/
abbrev G6 (c : Dev nD) : Buf (Elt Ideal) ((c : Thread nD τ).loc main_v2_0) :=
  Cert.ReferenceIdeal.Read.val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a last-phase point writes back is its block of the reference's result. -/
theorem flushed6_eq (c : Dev nD) (t : Fin cfg0.N) (h51 : 51 ≤ t.val) :
    (dats m 0 c).flushed 6 t = ((cfg0.win 6).blk t).view.read (Elt Ideal) (G6 m c) := by
  have hN : t.val < 101 := lt_of_lt_of_eq t.isLt (show cfg0.N = 101 from N_0)
  show (cfg0.win 6).cut (grid0.coords t) ((dats m 0 c).after 6 t) = _
  rw [after6]
  funext y
  obtain ⟨p, cc, rfl⟩ : ∃ (p : Fin 200) (cc : Fin 64), y = ix2 p cc := ⟨y 0, y 1, eq_ix2 y⟩
  have hp := p.isLt
  show k0_pay3 (iblk m c 0 t) (H2fin m c) (ix2 p cc) = G6 m c (((cfg0.win 6).blk t).view.emb (ix2 p cc))
  have hemb : ((cfg0.win 6).blk t).view.emb (ix2 p cc) = ix2 (⟨(t.val - 51) * 200 + p.val, by omega⟩ : Fin 10000) cc := funext fun a => Fin.ext (by
    match a with
    | ⟨0, _⟩ => show win0_6.index t (0 : Fin 2) * 200 + 1 * p.val = (t.val - 51) * 200 + p.val; rw [idx6_row t, if_neg (by omega), Nat.one_mul]
    | ⟨1, _⟩ => show win0_6.index t (1 : Fin 2) * 64 + 1 * cc.val = cc.val; rw [idx6_col t]; omega)
  rw [hemb]
  show _ = Cert.ReferenceIdeal.Read.val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 _ cc)
  rw [Cert.ReferenceIdeal.RefValue.ref10_apply]
  refine (pay3_apply (iblk m c 0 t) (H2fin m c) p cc).trans ?_
  refine Finset.sum_congr rfl fun k _ => ?_
  rw [H2fin_apply m c k cc, blk0_apply m c t p k ⟨(t.val - 51) * 200 + p.val, by omega⟩ (by rw [if_neg (by omega)])]

theorem mem_blk6 (t : Fin cfg0.N) (i : S10000x64.Idx) :
    i ∈ ((cfg0.win 6).blk t).view.set ↔ ∀ a : Fin 2, win0_6.index t a * S200x64.size a ≤ (i a).val ∧ (i a).val < win0_6.index t a * S200x64.size a + S200x64.size a := by
  show i ∈ ((View.whole main_v2_0).slice (win0_6.rect t)).set ↔ _
  rw [View.set_slice_whole, Rect.mem_set_unit]
  exact Iff.rfl

/-- Row r of the first result lies in the block written back at point r / 200 + 51. -/
theorem cover6 (i : S10000x64.Idx) : ∃ t : Fin cfg0.N, (cfg0.win 6).flush t = true ∧ i ∈ ((cfg0.win 6).blk t).view.set := by
  have hi0 : (i 0).val < 10000 := (i 0).isLt
  have hi1 : (i 1).val < 64 := (i 1).isLt
  have hv : (pt ((i 0).val / 200 + 51)).val = (i 0).val / 200 + 51 := pt_val' _ (by omega)
  refine ⟨pt ((i 0).val / 200 + 51), (flush6_iff _).mpr (by rw [hv]; omega), ?_⟩
  rw [mem_blk6]
  intro a
  match a with
  | ⟨0, _⟩ =>
    show win0_6.index (pt ((i 0).val / 200 + 51)) (0 : Fin 2) * 200 ≤ (i 0).val ∧ (i 0).val < win0_6.index (pt ((i 0).val / 200 + 51)) (0 : Fin 2) * 200 + 200
    rw [idx6_row, hv, if_neg (by omega)]; omega
  | ⟨1, _⟩ =>
    show win0_6.index (pt ((i 0).val / 200 + 51)) (1 : Fin 2) * 64 ≤ (i 1).val ∧ (i 1).val < win0_6.index (pt ((i 0).val / 200 + 51)) (1 : Fin 2) * 64 + 64
    rw [idx6_col]; omega

/-- The first result after the run is the reference's result. -/
theorem final6 (c : Dev nD) : (dats m 0 c).arrAt 6 cfg0.N = G6 m c :=
  (dats m 0 c).arrAt_eq_of_cover 6 (G6 m c) (fun t hf => flushed6_eq m c t ((flush6_iff t).mp hf)) cover6

/-! ## The second result -/

/-- The adjacency matrix as the launch finds it, at the second result's buffer. -/
abbrev G7 (c : Dev nD) : Buf (Elt Ideal) ((c : Thread nD τ).loc main_v2_1) := m ((c : Thread nD τ).loc main_arg0)

/-- What is written back to the second result is the matching block of the adjacency matrix. -/
theorem flushed7_eq (c : Dev nD) (t : Fin cfg0.N) (hf : (1 ≤ t.val ∧ t.val ≤ 49) ∨ t.val = 100) :
    (dats m 0 c).flushed 7 t = ((cfg0.win 7).blk t).view.read (Elt Ideal) (G7 m c) := by
  show (cfg0.win 7).cut (grid0.coords t) ((dats m 0 c).after 7 t) = _
  rw [after7]
  funext y
  obtain ⟨p, l, rfl⟩ : ∃ (p : Fin 200) (l : Fin 10000), y = ix2 p l := ⟨y 0, y 1, eq_ix2 y⟩
  have hp := p.isLt
  show iblk m c 0 (p7 t) (ix2 p l) = m ((c : Thread nD τ).loc main_arg0) (((cfg0.win 7).blk t).view.emb (ix2 p l))
  rcases hf with ⟨h1, h49⟩ | h100
  · have hp7 : p7 t = t := if_pos (by omega)
    have hemb : ((cfg0.win 7).blk t).view.emb (ix2 p l) = ix2 (⟨(t.val - 1) * 200 + p.val, by omega⟩ : Fin 10000) l := funext fun a => Fin.ext (by
      match a with
      | ⟨0, _⟩ => show win0_7.index t (0 : Fin 2) * 200 + 1 * p.val = (t.val - 1) * 200 + p.val; rw [idx7_row t, if_pos (by omega), Nat.one_mul]
      | ⟨1, _⟩ => show win0_7.index t (1 : Fin 2) * 10000 + 1 * l.val = l.val; rw [idx7_col t]; omega)
    rw [hp7, hemb]
    exact blk0_apply m c t p l _ (by rw [if_pos (by omega)])
  · have hp7 : p7 t = pt 50 := if_neg (by omega)
    have hemb : ((cfg0.win 7).blk t).view.emb (ix2 p l) = ix2 (⟨49 * 200 + p.val, by omega⟩ : Fin 10000) l := funext fun a => Fin.ext (by
      match a with
      | ⟨0, _⟩ => show win0_7.index t (0 : Fin 2) * 200 + 1 * p.val = 49 * 200 + p.val; rw [idx7_row t, if_neg (by omega), Nat.one_mul]
      | ⟨1, _⟩ => show win0_7.index t (1 : Fin 2) * 10000 + 1 * l.val = l.val; rw [idx7_col t]; omega)
    rw [hp7, hemb]
    exact blk0_apply m c (pt 50) p l _ (by rw [pt_val' 50 (by norm_num), if_pos (by norm_num)])

theorem mem_blk7 (t : Fin cfg0.N) (i : S10000x10000.Idx) :
    i ∈ ((cfg0.win 7).blk t).view.set ↔ ∀ a : Fin 2, win0_7.index t a * S200x10000.size a ≤ (i a).val ∧ (i a).val < win0_7.index t a * S200x10000.size a + S200x10000.size a := by
  show i ∈ ((View.whole main_v2_1).slice (win0_7.rect t)).set ↔ _
  rw [View.set_slice_whole, Rect.mem_set_unit]
  exact Iff.rfl

/-- Row r of the second result lies in the block written back at point r / 200 + 1 when that is at most 49, and in the block
    written back at the last point otherwise. -/
theorem cover7 (i : S10000x10000.Idx) : ∃ t : Fin cfg0.N, (cfg0.win 7).flush t = true ∧ i ∈ ((cfg0.win 7).blk t).view.set := by
  have hi0 : (i 0).val < 10000 := (i 0).isLt
  have hi1 : (i 1).val < 10000 := (i 1).isLt
  by_cases hb : (i 0).val / 200 ≤ 48
  · have hv : (pt ((i 0).val / 200 + 1)).val = (i 0).val / 200 + 1 := pt_val' _ (by omega)
    refine ⟨pt ((i 0).val / 200 + 1), (flush7_iff _).mpr (.inl (by rw [hv]; omega)), ?_⟩
    rw [mem_blk7]
    intro a
    match a with
    | ⟨0, _⟩ =>
      show win0_7.index (pt ((i 0).val / 200 + 1)) (0 : Fin 2) * 200 ≤ (i 0).val ∧ (i 0).val < win0_7.index (pt ((i 0).val / 200 + 1)) (0 : Fin 2) * 200 + 200
      rw [idx7_row, hv, if_pos (by omega)]; omega
    | ⟨1, _⟩ =>
      show win0_7.index (pt ((i 0).val / 200 + 1)) (1 : Fin 2) * 10000 ≤ (i 1).val ∧ (i 1).val < win0_7.index (pt ((i 0).val / 200 + 1)) (1 : Fin 2) * 10000 + 10000
      rw [idx7_col]; omega
  · have hv : (pt 100).val = 100 := pt_val' 100 (by norm_num)
    refine ⟨pt 100, (flush7_iff _).mpr (.inr hv), ?_⟩
    rw [mem_blk7]
    intro a
    match a with
    | ⟨0, _⟩ =>
      show win0_7.index (pt 100) (0 : Fin 2) * 200 ≤ (i 0).val ∧ (i 0).val < win0_7.index (pt 100) (0 : Fin 2) * 200 + 200
      rw [idx7_row, hv, if_neg (by norm_num)]; omega
    | ⟨1, _⟩ =>
      show win0_7.index (pt 100) (1 : Fin 2) * 10000 ≤ (i 1).val ∧ (i 1).val < win0_7.index (pt 100) (1 : Fin 2) * 10000 + 10000
      rw [idx7_col]; omega

/-- The second result after the run is the adjacency matrix. -/
theorem final7 (c : Dev nD) : (dats m 0 c).arrAt 7 cfg0.N = G7 m c :=
  (dats m 0 c).arrAt_eq_of_cover 7 (G7 m c) (fun t hf => flushed7_eq m c t ((flush7_iff t).mp hf)) cover7

/-! ## The run, read -/

/-- Every execution of the idealized kernel program terminates with the first result at the reference's result of the
    arguments, the second at the adjacency matrix, and the arguments unchanged. -/
theorem value_run : θ_run defs (onTc (τ := τ) (main (F := Ideal))) ⟨m, fun _ => 0, ρ⟩ (fun r => ∀ c : Dev nD,
      r.2.mem ((c.tc : Thread nD τ).loc main_v2_0) = G6 m c
      ∧ r.2.mem ((c.tc : Thread nD τ).loc main_v2_1) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Gen.Hand

end
-- ==== Proof.lean ====
/-
  Two stacked dense graph-convolution layers, out = A·(relu(A·(x·W1 + b1))·W2 + b2), returned together with the adjacency matrix
  A itself: the kernel program against its reference.

  The kernel makes one launch over 101 grid points. Point 0 computes xw = x·W1 + b1 into a scratch array. Points 1..50 each
  hold one block of 200 rows of A: they copy it to the second result and write the matching 200 rows of
  h2 = relu(A·xw)·W2 + b2 into a second scratch array. Points 51..100 each hold one block of 200 rows of A again and write the
  matching 200 rows of A·h2 to the first result. The reference computes the same four matrix products over whole arrays.

  On the extended reals a matrix product into a zero accumulator and the reference's product are both the plain sum of products
  over the contracted axis, so every entry of xw, then of h2, then of the result is the same sum of the same terms on both sides:
  only the tiling of the rows differs, no sum is regrouped and no factor moves across a sum, so the equality needs nothing of
  the inputs' finiteness. The second result is the adjacency matrix on both sides. The idealization rewrote no operation, so
  it is the program's own text read on the extended reals.
-/
import proofs.«147849_g52656299049164_cont_9to1_m_1270_11_alg».proof.Defs
import proofs.«147849_g52656299049164_cont_9to1_m_1270_11_alg».proof.Proof.Gen.Kernel
import proofs.«147849_g52656299049164_cont_9to1_m_1270_11_alg».proof.Proof.Gen.KernelIdeal
import proofs.«147849_g52656299049164_cont_9to1_m_1270_11_alg».proof.Proof.Gen.ReferenceIdeal
import proofs.«147849_g52656299049164_cont_9to1_m_1270_11_alg».proof.Proof.Gen.Pre_finite_inputs
import proofs.«147849_g52656299049164_cont_9to1_m_1270_11_alg».proof.Proof.Gen.ReferenceIdeal.Run
import proofs.«147849_g52656299049164_cont_9to1_m_1270_11_alg».proof.Proof.Gen.ReferenceIdeal.Read
import proofs.«147849_g52656299049164_cont_9to1_m_1270_11_alg».proof.Proof.KBFrame
import proofs.«147849_g52656299049164_cont_9to1_m_1270_11_alg».proof.Proof.KIValue
import Idealize.ShloMosaic.Adequacy
import Idealize.ShloMosaic.Init

noncomputable section

namespace Cert.Proof

open Idealize.ShloMosaic Idealize.ShloMosaic.TcCoe Idealize.SL.Sem

/-- The kernel program as printed runs to the end, faults nowhere and leaves its arguments unchanged. -/
theorem frame_k : Cert.frame_Kernel := fun m ρ _ =>
  Cert.Kernel.Gen.frame_of m ρ (Cert.Kernel.Gen.Hand.dats m) (Cert.Kernel.Gen.Hand.A_eq m) (Cert.Kernel.Gen.Hand.run_main (F := Bits) m ρ)

/-- So does its reading on the extended reals. -/
theorem frame_ki : Cert.frame_KernelIdeal := fun m ρ _ =>
  Cert.KernelIdeal.Gen.frame_of m ρ (Cert.KernelIdeal.Gen.Hand.dats m) (Cert.KernelIdeal.Gen.Hand.A_eq m) (Cert.KernelIdeal.Gen.Hand.run_main (F := Ideal) m ρ)

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing, so there is nothing to restate. -/
theorem preserves : Cert.preserves_Kernel_KernelIdeal := trivial

/-- On the extended reals both programs end with A·(relu(A·(x·W1 + b1))·W2 + b2) and with A, of arguments that agree. -/
theorem algebraic : Cert.algebraic_KernelIdeal_ReferenceIdeal := by
  intro m ρ m' ρ' _ hagree
  refine ⟨fun c => Cert.KernelIdeal.Gen.Hand.G6 m c, fun c => Cert.KernelIdeal.Gen.Hand.G7 m c, Cert.KernelIdeal.Gen.Hand.value_run m ρ, ?_⟩
  refine (θ_run Cert.ReferenceIdeal.defs _ _).mono (fun _ h c => ⟨?_, ?_, (h c).2.2⟩) (Cert.ReferenceIdeal.Value.run (F := Ideal) m' ρ')
  · rw [(h c).1, Cert.ReferenceIdeal.Read.val_main_v10_eq, (hagree c).1, (hagree c).2.1, (hagree c).2.2.1, (hagree c).2.2.2.1,
      (hagree c).2.2.2.2.1, (hagree c).2.2.2.2.2]
  · rw [(h c).2.1, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
